-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x6 : Shape := ⟨2, ![32768, 6]⟩
abbrev S32768 : Shape := ⟨1, ![32768]⟩
abbrev S6x6x128 : Shape := ⟨3, ![6, 6, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S32768x6 : S_.BroadcastsInDim S32768x6 (![] : Fin 0 → Fin S32768x6.rank)
  reducesTo_S32768x6_S_d0_1 : S32768x6.ReducesTo [0, 1] S_
  h_S_ : 0 < S_.numel
  bcast_S_S6x6x128 : S_.BroadcastsInDim S6x6x128 (![] : Fin 0 → Fin S6x6x128.rank)
  reducesTo_S6x6x128_S_d0_1_2 : S6x6x128.ReducesTo [0, 1, 2] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S32768x6 .f32) (main_arg1 : IVec S32768 32) (main_arg2 : FVec F S6x6x128 .f32) (main_arg3 : FVec F S128 .f32) (main_arg4 : FVec F S128x10 .f32) (main_arg5 : FVec F S10 .f32) : IVec S_ 1 :=
  let main_v0 : FVec F S32768x6 .f32 := Host.absf main_arg0
  let main_cst : FVec F S_ .f32 := constant S_ .f32 0x7F800000#32
  let main_v1 : FVec F S32768x6 .f32 := broadcastInDim S32768x6 ![] bcast_S_S32768x6 main_cst
  let main_v2 : IVec S32768x6 1 := cmpf .olt main_v0 main_v1
  let main_c : IVec S_ 1 := constantI S_ 1 1#1
  let main_v3 : IVec S_ 1 := (fun x v => Host.reduce IntOp.andi x v reducesTo_S32768x6_S_d0_1 h_S_) main_v2 main_c
  let main_v4 : FVec F S6x6x128 .f32 := Host.absf main_arg2
  let main_cst_0 : FVec F S_ .f32 := constant S_ .f32 0x7F800000#32
  let main_v5 : FVec F S6x6x128 .f32 := broadcastInDim S6x6x128 ![] bcast_S_S6x6x128 main_cst_0
  let main_v6 : IVec S6x6x128 1 := cmpf .olt main_v4 main_v5
  let main_c_1 : IVec S_ 1 := constantI S_ 1 1#1
  let main_v7 : IVec S_ 1 := (fun x v => Host.reduce IntOp.andi x v reducesTo_S6x6x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x10 .f32 := Host.absf main_arg4
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_arg5 main_v13 main_v16
-- ==== Kernel.lean ====
abbrev S32768x6 : Shape := ⟨2, ![32768, 6]⟩
abbrev S32768 : Shape := ⟨1, ![32768]⟩
abbrev S6x6x128 : Shape := ⟨3, ![6, 6, 128]⟩
abbrev S128 : Shape := ⟨1, ![128]⟩
abbrev S128x10 : Shape := ⟨2, ![128, 10]⟩
abbrev S10 : Shape := ⟨1, ![10]⟩
abbrev S32x1024x6 : Shape := ⟨3, ![32, 1024, 6]⟩
abbrev S1024x1024 : Shape := ⟨2, ![1024, 1024]⟩
abbrev S_ : Shape := ⟨0, ![]⟩
abbrev S32x1x128 : Shape := ⟨3, ![32, 1, 128]⟩
abbrev S1x1024x6 : Shape := ⟨3, ![1, 1024, 6]⟩
abbrev S1x1x128 : Shape := ⟨3, ![1, 1, 128]⟩
abbrev S1024x6 : Shape := ⟨2, ![1024, 6]⟩
abbrev S1024 : Shape := ⟨1, ![1024]⟩
abbrev S1024x1 : Shape := ⟨2, ![1024, 1]⟩
abbrev S6x1024 : Shape := ⟨2, ![6, 1024]⟩
abbrev S1x1024 : Shape := ⟨2, ![1, 1024]⟩
abbrev S1x6x128 : Shape := ⟨3, ![1, 6, 128]⟩
abbrev S6x128 : Shape := ⟨2, ![6, 128]⟩
abbrev S1024x128 : Shape := ⟨2, ![1024, 128]⟩
abbrev S1x128 : Shape := ⟨2, ![1, 128]⟩
abbrev S32x128 : Shape := ⟨2, ![32, 128]⟩
abbrev S32x10 : Shape := ⟨2, ![32, 10]⟩
abbrev S1x10 : Shape := ⟨2, ![1, 10]⟩

abbrev nBuf : Space → Nat
  | .hbm => 23
  | .vmem => 7
  | .smem => 0
  | _ => 0

abbrev bufTy : (tb : Table) → Fin (tcTables nBuf tb) → BufTy
  | .hbm, ⟨0, _⟩ => ⟨S32768x6, .f32⟩
  | .hbm, ⟨1, _⟩ => ⟨S32768, .i32⟩
  | .hbm, ⟨2, _⟩ => ⟨S6x6x128, .f32⟩
  | .hbm, ⟨3, _⟩ => ⟨S128, .f32⟩
  | .hbm, ⟨4, _⟩ => ⟨S128x10, .f32⟩
  | .hbm, ⟨5, _⟩ => ⟨S10, .f32⟩
  | .hbm, ⟨6, _⟩ => ⟨S32x1024x6, .f32⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S32x1x128, .f32⟩
  | .hbm, ⟨18, _⟩ => ⟨S32x128, .f32⟩
  | .hbm, ⟨19, _⟩ => ⟨S32x10, .f32⟩
  | .hbm, ⟨20, _⟩ => ⟨S1x10, .f32⟩
  | .hbm, ⟨21, _⟩ => ⟨S32x10, .f32⟩
  | .hbm, ⟨22, _⟩ => ⟨S32x10, .f32⟩
  | .local _ .vmem, ⟨0, _⟩ => ⟨S1x1024x6, .f32⟩
  | .local _ .vmem, ⟨1, _⟩ => ⟨S1x1024x6, .f32⟩
  | .local _ .vmem, ⟨2, _⟩ => ⟨S1024x1024, .f32⟩
  | .local _ .vmem, ⟨3, _⟩ => ⟨S6x6x128, .f32⟩
  | .local _ .vmem, ⟨4, _⟩ => ⟨S128, .f32⟩
  | .local _ .vmem, ⟨5, _⟩ => ⟨S1x1x128, .f32⟩
  | .local _ .vmem, ⟨6, _⟩ => ⟨S1x1x128, .f32⟩
  | _, _ => ⟨S32768x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32768x6_S32x1024x6 : S32768x6.ShapeCasts S32x1024x6
  bcast_S_S1024x1024 : S_.BroadcastsInDim S1024x1024 (![] : Fin 0 → Fin S1024x1024.rank)
  inb_S1x1024x6_S1x1024x6_0_0_0 : ∀ a, (![0, 0, 0] : Fin 3 → Nat) a + S1x1024x6.size a ≤ S1x1024x6.size a
  h_S1x1024x6 : 0 < S1x1024x6.numel
  shapeCasts_S1x1024x6_S1024x6 : S1x1024x6.ShapeCasts S1024x6
  reduces_S1024x6_S1024 : S1024x6.Reduces [1] S1024
  shapeCasts_S1024_S1024x1 : S1024.ShapeCasts S1024x1
  transposes_S1024x6_p1_0_S6x1024 : S1024x6.Transposes [1, 0] S6x1024
  broadcasts_S1024x1_S1024x1024 : S1024x1.Broadcasts S1024x1024
  transposes_S1024x1_p1_0_S1x1024 : S1024x1.Transposes [1, 0] S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1x1024 : S1024.ShapeCasts S1x1024
  bitsLt_bf16_f32 : FTy.bits .bf16 < FTy.bits .f32
  inb_S6x6x128_S1x6x128_0_0_0 : ∀ a, (![0, 0, 0] : Fin 3 → Nat) a + S1x6x128.size a ≤ S6x6x128.size a
  h_S1x6x128 : 0 < S1x6x128.numel
  shapeCasts_S1x6x128_S6x128 : S1x6x128.ShapeCasts S6x128
  inb_S6x6x128_S1x6x128_1_0_0 : ∀ a, (![1, 0, 0] : Fin 3 → Nat) a + S1x6x128.size a ≤ S6x6x128.size a
  inb_S6x6x128_S1x6x128_2_0_0 : ∀ a, (![2, 0, 0] : Fin 3 → Nat) a + S1x6x128.size a ≤ S6x6x128.size a
  inb_S6x6x128_S1x6x128_3_0_0 : ∀ a, (![3, 0, 0] : Fin 3 → Nat) a + S1x6x128.size a ≤ S6x6x128.size a
  inb_S6x6x128_S1x6x128_4_0_0 : ∀ a, (![4, 0, 0] : Fin 3 → Nat) a + S1x6x128.size a ≤ S6x6x128.size a
  inb_S6x6x128_S1x6x128_5_0_0 : ∀ a, (![5, 0, 0] : Fin 3 → Nat) a + S1x6x128.size a ≤ S6x6x128.size a
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S128 : S1024x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S32x1x128_S32x128 : S32x1x128.ShapeCasts S32x128
  bcast_S10_S1x10_1 : S10.BroadcastsInDim S1x10 (![1] : Fin 1 → Fin S1x10.rank)
  bcast_S1x10_S32x10_0_1 : S1x10.BroadcastsInDim S32x10 (![0, 1] : Fin 2 → Fin S32x10.rank)
  dot_S1024x6_S6x1024_S1024x1024_1_0_0_1_n_n_wf : DotDims.WF S1024x6 S6x1024 S1024x1024 [1] [0] [0] [1] [] []
  dot_S1024x6_S6x128_S1024x128_1_0_0_1_n_n_wf : DotDims.WF S1024x6 S6x128 S1024x128 [1] [0] [0] [1] [] []
  dot_S1024x1024_S1024x6_S1024x6_1_0_0_1_n_n_wf : DotDims.WF S1024x1024 S1024x6 S1024x6 [1] [0] [0] [1] [] []
  dot_S32x128_S128x10_S32x10_1_0_0_1_n_n_wf : DotDims.WF S32x128 S128x10 S32x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x6.size a ≤ S32x1024x6.size a
  hwx0_0 : ∀ i : grid0.Coords, EltTy.bits .f32 = 32 ∨ (Rect.block (s := S32x1024x6) S1x1024x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x6x128.size a ≤ S6x6x128.size a
  hwx0_2 : ∀ i : grid0.Coords, EltTy.bits .f32 = 32 ∨ (Rect.block (s := S6x6x128) S6x6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S32x1x128.size a
  hwx0_4 : ∀ i : grid0.Coords, EltTy.bits .f32 = 32 ∨ (Rect.block (s := S32x1x128) S1x1x128.size (cc0_transform_4 i) (hinb0_4 i)).WholeWords (EltTy.packing .f32)

variable [Facts₀]

def dot_S1024x6_S6x1024_S1024x1024_1_0_0_1_n_n : DotDims S1024x6 S6x1024 S1024x1024 where
  lhsContracting := [1]
  rhsContracting := [0]
  lhsNonContracting := [0]
  rhsNonContracting := [1]
  lhsBatch := []
  rhsBatch := []
  wf := dot_S1024x6_S6x1024_S1024x1024_1_0_0_1_n_n_wf
def dot_S1024x6_S6x128_S1024x128_1_0_0_1_n_n : DotDims S1024x6 S6x128 S1024x128 where
  lhsContracting := [1]
  rhsContracting := [0]
  lhsNonContracting := [0]
  rhsNonContracting := [1]
  lhsBatch := []
  rhsBatch := []
  wf := dot_S1024x6_S6x128_S1024x128_1_0_0_1_n_n_wf
def dot_S1024x1024_S1024x6_S1024x6_1_0_0_1_n_n : DotDims S1024x1024 S1024x6 S1024x6 where
  lhsContracting := [1]
  rhsContracting := [0]
  lhsNonContracting := [0]
  rhsNonContracting := [1]
  lhsBatch := []
  rhsBatch := []
  wf := dot_S1024x1024_S1024x6_S1024x6_1_0_0_1_n_n_wf
def dot_S32x128_S128x10_S32x10_1_0_0_1_n_n : DotDims S32x128 S128x10 S32x10 where
  lhsContracting := [1]
  rhsContracting := [0]
  lhsNonContracting := [0]
  rhsNonContracting := [1]
  lhsBatch := []
  rhsBatch := []
  wf := dot_S32x128_S128x10_S32x10_1_0_0_1_n_n_wf

abbrev win0_0 : Pipeline.Window sig grid0 :=
  Pipeline.Window.ofSpec (Memref.whole main_v0) S1x1024x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x6 : Shape := ⟨2, ![32768, 6]⟩
abbrev S32768 : Shape := ⟨1, ![32768]⟩
abbrev S6x6x128 : Shape := ⟨3, ![6, 6, 128]⟩
abbrev S128 : Shape := ⟨1, ![128]⟩
abbrev S128x10 : Shape := ⟨2, ![128, 10]⟩
abbrev S10 : Shape := ⟨1, ![10]⟩
abbrev S32x1024x6 : Shape := ⟨3, ![32, 1024, 6]⟩
abbrev S_ : Shape := ⟨0, ![]⟩
abbrev S32x1024 : Shape := ⟨2, ![32, 1024]⟩
abbrev S32x1024x1 : Shape := ⟨3, ![32, 1024, 1]⟩
abbrev S32x1024x1024 : Shape := ⟨3, ![32, 1024, 1024]⟩
abbrev S32x1x1024 : Shape := ⟨3, ![32, 1, 1024]⟩
abbrev S1024x1024 : Shape := ⟨2, ![1024, 1024]⟩
abbrev S1x1024x1024 : Shape := ⟨3, ![1, 1024, 1024]⟩
abbrev S1x6x128 : Shape := ⟨3, ![1, 6, 128]⟩
abbrev S6x128 : Shape := ⟨2, ![6, 128]⟩
abbrev S32x1024x128 : Shape := ⟨3, ![32, 1024, 128]⟩
abbrev S1x1x128 : Shape := ⟨3, ![1, 1, 128]⟩
abbrev S32x128 : Shape := ⟨2, ![32, 128]⟩
abbrev S32x10 : Shape := ⟨2, ![32, 10]⟩
abbrev S1x10 : Shape := ⟨2, ![1, 10]⟩

abbrev nBuf : Space → Nat
  | .hbm => 108
  | .vmem => 0
  | .smem => 0
  | _ => 0

abbrev bufTy : (tb : Table) → Fin (tcTables nBuf tb) → BufTy
  | .hbm, ⟨0, _⟩ => ⟨S32768x6, .f32⟩
  | .hbm, ⟨1, _⟩ => ⟨S32768, .i32⟩
  | .hbm, ⟨2, _⟩ => ⟨S6x6x128, .f32⟩
  | .hbm, ⟨3, _⟩ => ⟨S128, .f32⟩
  | .hbm, ⟨4, _⟩ => ⟨S128x10, .f32⟩
  | .hbm, ⟨5, _⟩ => ⟨S10, .f32⟩
  | .hbm, ⟨6, _⟩ => ⟨S32x1024x6, .f32⟩
  | .hbm, ⟨7, _⟩ => ⟨S32x1024x6, .f32⟩
  | .hbm, ⟨8, _⟩ => ⟨S_, .f32⟩
  | .hbm, ⟨9, _⟩ => ⟨S32x1024, .f32⟩
  | .hbm, ⟨10, _⟩ => ⟨S32x1024x1, .f32⟩
  | .hbm, ⟨11, _⟩ => ⟨S32x1024x1024, .f32⟩
  | .hbm, ⟨12, _⟩ => ⟨S_, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | .hbm, ⟨16, _⟩ => ⟨S32x1024x1024, .f32⟩
  | .hbm, ⟨17, _⟩ => ⟨S32x1x1024, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S32x1024x1024, .f32⟩
  | .hbm, ⟨22, _⟩ => ⟨S1024x1024, .i32⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1x1024x1024, .f32⟩
  | .hbm, ⟨33, _⟩ => ⟨S32x1024x1024, .f32⟩
  | .hbm, ⟨34, _⟩ => ⟨S32x1024x1024, .f32⟩
  | .hbm, ⟨35, _⟩ => ⟨S_, .f32⟩
  | .hbm, ⟨36, _⟩ => ⟨S32x1024, .f32⟩
  | .hbm, ⟨37, _⟩ => ⟨S_, .f32⟩
  | .hbm, ⟨38, _⟩ => ⟨S32x1024, .f32⟩
  | .hbm, ⟨39, _⟩ => ⟨S32x1024, .i1⟩
  | .hbm, ⟨40, _⟩ => ⟨S32x1024, .f32⟩
  | .hbm, ⟨41, _⟩ => ⟨S_, .f32⟩
  | .hbm, ⟨42, _⟩ => ⟨S_, .f32⟩
  | .hbm, ⟨43, _⟩ => ⟨S32x1024, .f32⟩
  | .hbm, ⟨44, _⟩ => ⟨S32x1024, .f32⟩
  | .hbm, ⟨45, _⟩ => ⟨S32x1024x1, .f32⟩
  | .hbm, ⟨46, _⟩ => ⟨S32x1024x1024, .f32⟩
  | .hbm, ⟨47, _⟩ => ⟨S32x1024x1024, .f32⟩
  | .hbm, ⟨48, _⟩ => ⟨S32x1x1024, .f32⟩
  | .hbm, ⟨49, _⟩ => ⟨S32x1024x1024, .f32⟩
  | .hbm, ⟨50, _⟩ => ⟨S32x1024x1024, .f32⟩
  | .hbm, ⟨51, _⟩ => ⟨S32x1024x1024, .f32⟩
  | .hbm, ⟨52, _⟩ => ⟨S1x6x128, .f32⟩
  | .hbm, ⟨53, _⟩ => ⟨S6x128, .f32⟩
  | .hbm, ⟨54, _⟩ => ⟨S32x1024x128, .f32⟩
  | .hbm, ⟨55, _⟩ => ⟨S32x1024x6, .f32⟩
  | .hbm, ⟨56, _⟩ => ⟨S1x6x128, .f32⟩
  | .hbm, ⟨57, _⟩ => ⟨S6x128, .f32⟩
  | .hbm, ⟨58, _⟩ => ⟨S32x1024x128, .f32⟩
  | .hbm, ⟨59, _⟩ => ⟨S32x1024x128, .f32⟩
  | .hbm, ⟨60, _⟩ => ⟨S32x1024x6, .f32⟩
  | .hbm, ⟨61, _⟩ => ⟨S_, .f32⟩
  | .hbm, ⟨62, _⟩ => ⟨S32x1024x6, .f32⟩
  | .hbm, ⟨63, _⟩ => ⟨S32x1024x6, .f32⟩
  | .hbm, ⟨64, _⟩ => ⟨S32x1024x6, .f32⟩
  | .hbm, ⟨65, _⟩ => ⟨S1x6x128, .f32⟩
  | .hbm, ⟨66, _⟩ => ⟨S6x128, .f32⟩
  | .hbm, ⟨67, _⟩ => ⟨S32x1024x128, .f32⟩
  | .hbm, ⟨68, _⟩ => ⟨S32x1024x128, .f32⟩
  | .hbm, ⟨69, _⟩ => ⟨S32x1024x6, .f32⟩
  | .hbm, ⟨70, _⟩ => ⟨S_, .f32⟩
  | .hbm, ⟨71, _⟩ => ⟨S32x1024x6, .f32⟩
  | .hbm, ⟨72, _⟩ => ⟨S32x1024x6, .f32⟩
  | .hbm, ⟨73, _⟩ => ⟨S32x1024x6, .f32⟩
  | .hbm, ⟨74, _⟩ => ⟨S1x6x128, .f32⟩
  | .hbm, ⟨75, _⟩ => ⟨S6x128, .f32⟩
  | .hbm, ⟨76, _⟩ => ⟨S32x1024x128, .f32⟩
  | .hbm, ⟨77, _⟩ => ⟨S32x1024x128, .f32⟩
  | .hbm, ⟨78, _⟩ => ⟨S32x1024x6, .f32⟩
  | .hbm, ⟨79, _⟩ => ⟨S_, .f32⟩
  | .hbm, ⟨80, _⟩ => ⟨S32x1024x6, .f32⟩
  | .hbm, ⟨81, _⟩ => ⟨S32x1024x6, .f32⟩
  | .hbm, ⟨82, _⟩ => ⟨S32x1024x6, .f32⟩
  | .hbm, ⟨83, _⟩ => ⟨S1x6x128, .f32⟩
  | .hbm, ⟨84, _⟩ => ⟨S6x128, .f32⟩
  | .hbm, ⟨85, _⟩ => ⟨S32x1024x128, .f32⟩
  | .hbm, ⟨86, _⟩ => ⟨S32x1024x128, .f32⟩
  | .hbm, ⟨87, _⟩ => ⟨S32x1024x6, .f32⟩
  | .hbm, ⟨88, _⟩ => ⟨S_, .f32⟩
  | .hbm, ⟨89, _⟩ => ⟨S32x1024x6, .f32⟩
  | .hbm, ⟨90, _⟩ => ⟨S32x1024x6, .f32⟩
  | .hbm, ⟨91, _⟩ => ⟨S32x1024x6, .f32⟩
  | .hbm, ⟨92, _⟩ => ⟨S1x6x128, .f32⟩
  | .hbm, ⟨93, _⟩ => ⟨S6x128, .f32⟩
  | .hbm, ⟨94, _⟩ => ⟨S32x1024x128, .f32⟩
  | .hbm, ⟨95, _⟩ => ⟨S32x1024x128, .f32⟩
  | .hbm, ⟨96, _⟩ => ⟨S1x1x128, .f32⟩
  | .hbm, ⟨97, _⟩ => ⟨S32x1024x128, .f32⟩
  | .hbm, ⟨98, _⟩ => ⟨S32x1024x128, .f32⟩
  | .hbm, ⟨99, _⟩ => ⟨S_, .f32⟩
  | .hbm, ⟨100, _⟩ => ⟨S32x1024x128, .f32⟩
  | .hbm, ⟨101, _⟩ => ⟨S32x1024x128, .f32⟩
  | .hbm, ⟨102, _⟩ => ⟨S_, .f32⟩
  | .hbm, ⟨103, _⟩ => ⟨S32x128, .f32⟩
  | .hbm, ⟨104, _⟩ => ⟨S32x10, .f32⟩
  | .hbm, ⟨105, _⟩ => ⟨S1x10, .f32⟩
  | .hbm, ⟨106, _⟩ => ⟨S32x10, .f32⟩
  | .hbm, ⟨107, _⟩ => ⟨S32x10, .f32⟩
  | _, _ => ⟨S32768x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_call1_cst : Ref sig .tc := ⟨.hbm, 99, rfl⟩
abbrev main_call1_v0 : Ref sig .tc := ⟨.hbm, 100, rfl⟩
abbrev main_v80 : Ref sig .tc := ⟨.hbm, 101, rfl⟩
abbrev main_cst_9 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]

class Facts₀ : Prop where
  shapeCasts_S32768x6_S32x1024x6 : S32768x6.ShapeCasts S32x1024x6
  reducesTo_S32x1024x6_S32x1024_d2 : S32x1024x6.ReducesTo [2] S32x1024
  h_S_ : 0 < S_.numel
  bcast_S32x1024_S32x1024x1_0_1 : S32x1024.BroadcastsInDim S32x1024x1 (![0, 1] : Fin 2 → Fin S32x1024x1.rank)
  bcast_S_S32x1024x1024 : S_.BroadcastsInDim S32x1024x1024 (![] : Fin 0 → Fin S32x1024x1024.rank)
  bcast_S32x1024x1_S32x1024x1024_0_1_2 : S32x1024x1.BroadcastsInDim S32x1024x1024 (![0, 1, 2] : Fin 3 → Fin S32x1024x1024.rank)
  transposes_S32x1024x1_S32x1x1024_0_2_1 : S32x1024x1.Transposes [0, 2, 1] S32x1x1024
  bcast_S32x1x1024_S32x1024x1024_0_1_2 : S32x1x1024.BroadcastsInDim S32x1024x1024 (![0, 1, 2] : Fin 3 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32x1024_d2 : S32x1024x1024.ReducesTo [2] S32x1024
  bcast_S_S32x1024 : S_.BroadcastsInDim S32x1024 (![] : Fin 0 → Fin S32x1024.rank)
  bcast_S32x1024_S32x1x1024_0_2 : S32x1024.BroadcastsInDim S32x1x1024 (![0, 2] : Fin 2 → Fin S32x1x1024.rank)
  slices_S6x6x128_S1x6x128_0_0_0 : S6x6x128.Slices ![0, 0, 0] S1x6x128
  shapeCasts_S1x6x128_S6x128 : S1x6x128.ShapeCasts S6x128
  slices_S6x6x128_S1x6x128_1_0_0 : S6x6x128.Slices ![1, 0, 0] S1x6x128
  bcast_S_S32x1024x6 : S_.BroadcastsInDim S32x1024x6 (![] : Fin 0 → Fin S32x1024x6.rank)
  slices_S6x6x128_S1x6x128_2_0_0 : S6x6x128.Slices ![2, 0, 0] S1x6x128
  slices_S6x6x128_S1x6x128_3_0_0 : S6x6x128.Slices ![3, 0, 0] S1x6x128
  slices_S6x6x128_S1x6x128_4_0_0 : S6x6x128.Slices ![4, 0, 0] S1x6x128
  slices_S6x6x128_S1x6x128_5_0_0 : S6x6x128.Slices ![5, 0, 0] S1x6x128
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  bcast_S_S32x1024x128 : S_.BroadcastsInDim S32x1024x128 (![] : Fin 0 → Fin S32x1024x128.rank)
  reducesTo_S32x1024x128_S32x128_d1 : S32x1024x128.ReducesTo [1] S32x128
  bcast_S10_S1x10_1 : S10.BroadcastsInDim S1x10 (![1] : Fin 1 → Fin S1x10.rank)
  bcast_S1x10_S32x10_0_1 : S1x10.BroadcastsInDim S32x10 (![0, 1] : Fin 2 → Fin S32x10.rank)
  dot_S32x1024x6_S32x1024x6_S32x1024x1024_2_2_1_1_0_0_wf : DotDims.WF S32x1024x6 S32x1024x6 S32x1024x1024 [2] [2] [1] [1] [0] [0]
  dot_S32x1024x6_S6x128_S32x1024x128_2_0_01_1_n_n_wf : DotDims.WF S32x1024x6 S6x128 S32x1024x128 [2] [0] [0, 1] [1] [] []
  dot_S32x1024x1024_S32x1024x6_S32x1024x6_2_1_1_2_0_0_wf : DotDims.WF S32x1024x1024 S32x1024x6 S32x1024x6 [2] [1] [1] [2] [0] [0]
  dot_S32x128_S128x10_S32x10_1_0_0_1_n_n_wf : DotDims.WF S32x128 S128x10 S32x10 [1] [0] [0] [1] [] []

variable [Facts₀]

def dot_S32x1024x6_S32x1024x6_S32x1024x1024_2_2_1_1_0_0 : DotDims S32x1024x6 S32x1024x6 S32x1024x1024 where
  lhsContracting := [2]
  rhsContracting := [2]
  lhsNonContracting := [1]
  rhsNonContracting := [1]
  lhsBatch := [0]
  rhsBatch := [0]
  wf := dot_S32x1024x6_S32x1024x6_S32x1024x1024_2_2_1_1_0_0_wf
def dot_S32x1024x6_S6x128_S32x1024x128_2_0_01_1_n_n : DotDims S32x1024x6 S6x128 S32x1024x128 where
  lhsContracting := [2]
  rhsContracting := [0]
  lhsNonContracting := [0, 1]
  rhsNonContracting := [1]
  lhsBatch := []
  rhsBatch := []
  wf := dot_S32x1024x6_S6x128_S32x1024x128_2_0_01_1_n_n_wf
def dot_S32x1024x1024_S32x1024x6_S32x1024x6_2_1_1_2_0_0 : DotDims S32x1024x1024 S32x1024x6 S32x1024x6 where
  lhsContracting := [2]
  rhsContracting := [1]
  lhsNonContracting := [1]
  rhsNonContracting := [2]
  lhsBatch := [0]
  rhsBatch := [0]
  wf := dot_S32x1024x1024_S32x1024x6_S32x1024x6_2_1_1_2_0_0_wf
def dot_S32x128_S128x10_S32x10_1_0_0_1_n_n : DotDims S32x128 S128x10 S32x10 where
  lhsContracting := [1]
  rhsContracting := [0]
  lhsNonContracting := [0]
  rhsNonContracting := [1]
  lhsBatch := []
  rhsBatch := []
  wf := dot_S32x128_S128x10_S32x10_1_0_0_1_n_n_wf

class Facts : Prop extends Facts₀ where

variable [Facts]
-- ==== Proof.GraphSpec.lean ====
/-
  One graph of the spectral network, as plain formulas over coordinates, on the extended reals.

  A graph has 1024 points with 6 features each: X n d.  From the points:
    sq n       = ∑ d, X n d · X n d                 the squared norm of point n
    gram n m   = ∑ d, X n d · X m d                 the inner product of points n and m
    adj n m    = exp (−‖X n − X m‖²) · M n m         the Gaussian adjacency, M the mask that removes self-loops
    deg n      = ∑ m, adj n m
    dinv n     = deg n ^ (−1/2) where deg n > 0, else 0
    lap n m    = −(dinv n · dinv m) · adj n m        the scaled Laplacian
  The squared distance is written in two arrangements, (2·gram − sq n) − sq m negated inside the exponent or outside:
    adjK uses exp ((2·gram n m − sq n) − sq m),   adjR uses exp (−((sq n − 2·gram n m) + sq m)).
  These agree when every X n d is a real number (on the extended reals −(a + b) = −a − b fails at opposite infinities).
  The Laplacian is likewise written (0 − dinv n · dinv m) · adj n m or −((dinv n · adj n m) · dinv m); these agree
  always, multiplication being commutative and associative and −a · b = −(a · b) on the extended reals.

  The Chebyshev recurrence T₀ = X, T₁ = L T₀, T_{k+1} = 2 · L T_k − T_{k−1} (L T)(n, f) = ∑ m, L n m · T m f,
  the feature maps (T W_k)(n, o) = ∑ f, T n f · W k f o summed over k = 0..5, the bias, the rectifier, and the
  maximum over the graph's points give the graph's 128 pooled features.
-/
import Idealize.ShloMosaic.PureOps.Ideal
import Idealize.ShloMosaic.PureOps.Ideal.Laws

noncomputable section

open scoped BigOperators

namespace Cert.Graph

open Idealize.ShloMosaic

/-- The literal 2.0, 0.0 and −∞ as the programs spell them. -/
abbrev two : EReal := Ideal.ofBits .f32 0x40000000#32
abbrev zer : EReal := Ideal.ofBits .f32 0x00000000#32
abbrev ninf : EReal := Ideal.ofBits .f32 0xFF800000#32

theorem zer_eq : zer = 0 := Ideal.ofBits_zero_f32

theorem two_real : ∃ r : ℝ, two = (r : EReal) := by
  have h1 : two ≠ ⊤ := by
    simp only [two, Ideal.ofBits, Ideal.ieee]; norm_num
    first | exact EReal.coe_ne_top _ | (rw [← EReal.coe_mul]; exact EReal.coe_ne_top _) | (norm_cast)
  have h2 : two ≠ ⊥ := by
    simp only [two, Ideal.ofBits, Ideal.ieee]; norm_num
    first | exact EReal.coe_ne_bot _ | (rw [← EReal.coe_mul]; exact EReal.coe_ne_bot _) | (norm_cast)
  exact ⟨_, (EReal.coe_toReal h1 h2).symm⟩

section
variable (X : Fin 1024 → Fin 6 → EReal) (M : Fin 1024 → Fin 1024 → EReal)

def sq (n : Fin 1024) : EReal := ∑ d : Fin 6, X n d * X n d
def gram (n m : Fin 1024) : EReal := ∑ d : Fin 6, X n d * X m d
def adjK (n m : Fin 1024) : EReal := Ideal.exp ((two * gram X n m - sq X n) - sq X m) * M n m
def adjR (n m : Fin 1024) : EReal := Ideal.exp (-((sq X n - two * gram X n m) + sq X m)) * M n m
end

def deg (A : Fin 1024 → Fin 1024 → EReal) (n : Fin 1024) : EReal := ∑ m : Fin 1024, A n m
def dinv (D : Fin 1024 → EReal) (n : Fin 1024) : EReal :=
  Scalar.select (Ideal.cmp .ogt (D n) zer) (Ideal.rsqrt (D n)) zer
def lapK (R : Fin 1024 → EReal) (A : Fin 1024 → Fin 1024 → EReal) (n m : Fin 1024) : EReal := (zer - R n * R m) * A n m
def lapR (R : Fin 1024 → EReal) (A : Fin 1024 → Fin 1024 → EReal) (n m : Fin 1024) : EReal := -((R n * A n m) * R m)

/-- A finite sum of reals is a real. -/
theorem sum_real {ι : Type} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by rw [Finset.sum_empty, EReal.coe_zero]⟩
  | insert a s ha ih =>
    obtain ⟨x, hx⟩ := h a (Finset.mem_insert_self _ _)
    obtain ⟨y, hy⟩ := ih fun i hi => h i (Finset.mem_insert_of_mem hi)
    exact ⟨x + y, by rw [Finset.sum_insert ha, hx, hy, EReal.coe_add]⟩

/-- The two arrangements of the squared distance agree on reals. -/
theorem adjK_eq_adjR (X : Fin 1024 → Fin 6 → EReal) (M : Fin 1024 → Fin 1024 → EReal)
    (hX : ∀ n d, ∃ r : ℝ, X n d = (r : EReal)) : adjK X M = adjR X M := by
  funext n m
  have hs : ∀ n, ∃ r : ℝ, sq X n = (r : EReal) := fun n => sum_real _ _ fun d _ => by
    obtain ⟨a, ha⟩ := hX n d; exact ⟨a * a, by rw [ha, EReal.coe_mul]⟩
  have hg : ∃ r : ℝ, gram X n m = (r : EReal) := sum_real _ _ fun d _ => by
    obtain ⟨a, ha⟩ := hX n d; obtain ⟨b, hb⟩ := hX m d; exact ⟨a * b, by rw [ha, hb, EReal.coe_mul]⟩
  obtain ⟨s1, h1⟩ := hs n; obtain ⟨s2, h2⟩ := hs m; obtain ⟨g, hg⟩ := hg; obtain ⟨t, ht⟩ := two_real
  unfold adjK adjR
  rw [h1, h2, hg, ht]
  congr 2
  rw [← EReal.coe_mul, ← EReal.coe_sub, ← EReal.coe_sub, ← EReal.coe_sub, ← EReal.coe_add, ← EReal.coe_neg]
  congr 1; ring

/-- The two arrangements of the scaled Laplacian agree. -/
theorem lapK_eq_lapR (R : Fin 1024 → EReal) (A : Fin 1024 → Fin 1024 → EReal) : lapK R A = lapR R A := by
  funext n m
  unfold lapK lapR
  rw [zer_eq, sub_eq_add_neg, zero_add, EReal.neg_mul, mul_assoc, mul_assoc, mul_comm (R m) (A n m)]

/-- The Laplacian of a graph, in each arrangement. -/
def LK (X : Fin 1024 → Fin 6 → EReal) (M : Fin 1024 → Fin 1024 → EReal) : Fin 1024 → Fin 1024 → EReal :=
  lapK (dinv (deg (adjK X M))) (adjK X M)
def LR (X : Fin 1024 → Fin 6 → EReal) (M : Fin 1024 → Fin 1024 → EReal) : Fin 1024 → Fin 1024 → EReal :=
  lapR (dinv (deg (adjR X M))) (adjR X M)

theorem LK_eq_LR (X : Fin 1024 → Fin 6 → EReal) (M : Fin 1024 → Fin 1024 → EReal)
    (hX : ∀ n d, ∃ r : ℝ, X n d = (r : EReal)) : LK X M = LR X M := by
  unfold LK LR; rw [adjK_eq_adjR X M hX, lapK_eq_lapR]

/-! ## The Chebyshev recurrence, the feature maps and the pooling -/

section
variable (L : Fin 1024 → Fin 1024 → EReal)

/-- (L T)(n, f) = ∑ m, L n m · T m f. -/
def lmul (T : Fin 1024 → Fin 6 → EReal) (n : Fin 1024) (f : Fin 6) : EReal := ∑ m : Fin 1024, L n m * T m f
/-- One step of the recurrence: 2 · L T − T'. -/
def step (T Tp : Fin 1024 → Fin 6 → EReal) (n : Fin 1024) (f : Fin 6) : EReal := two * lmul L T n f - Tp n f
end

/-- (T Wk)(n, o) = ∑ f, T n f · Wk f o. -/
def proj (T : Fin 1024 → Fin 6 → EReal) (Wk : Fin 6 → Fin 128 → EReal) (n : Fin 1024) (o : Fin 128) : EReal :=
  ∑ f : Fin 6, T n f * Wk f o

section
variable (L : Fin 1024 → Fin 1024 → EReal) (X : Fin 1024 → Fin 6 → EReal) (W : Fin 6 → Fin 6 → Fin 128 → EReal)
  (bias : Fin 128 → EReal)

def T1 : Fin 1024 → Fin 6 → EReal := lmul L X
def T2 : Fin 1024 → Fin 6 → EReal := step L (T1 L X) X
def T3 : Fin 1024 → Fin 6 → EReal := step L (T2 L X) (T1 L X)
def T4 : Fin 1024 → Fin 6 → EReal := step L (T3 L X) (T2 L X)
def T5 : Fin 1024 → Fin 6 → EReal := step L (T4 L X) (T3 L X)

/-- The six feature maps summed, in the order the programs add them. -/
def feat (n : Fin 1024) (o : Fin 128) : EReal :=
  ((((proj X (W 0) n o + proj (T1 L X) (W 1) n o) + proj (T2 L X) (W 2) n o) + proj (T3 L X) (W 3) n o)
    + proj (T4 L X) (W 4) n o) + proj (T5 L X) (W 5) n o

/-- Bias and rectifier. -/
def act (n : Fin 1024) (o : Fin 128) : EReal := max (feat L X W n o + bias o) zer

/-- The maximum over the graph's points, from −∞. -/
def pool (o : Fin 128) : EReal := (Finset.univ : Finset (Fin 1024)).fold max ninf (fun n => act L X W bias n o)
end

end Cert.Graph

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.LibRowMax.lean ====
/-
  The host's maximum-reduce along the rows of an m × n array, read at a row, at exact (extended-real) arithmetic:
  at row N it is the maximum, folded from the initial value, of the entries (N, k) over the n columns k.
-/
import Idealize.ShloMosaic.PureOps.Reduce
import Idealize.ShloMosaic.PureOps.Ideal.Laws
import Idealize.ShloMosaic.Lib.ValueIdx

noncomputable section

namespace Cert.LibRowMax

open Idealize.ShloMosaic Idealize.ShloMosaic.ValueIdx

/-- Putting column k back behind row N gives (N, k). -/
theorem lift_row {m n : ℕ} (h : (⟨2, ![m, n]⟩ : Shape).Reduces [1] (⟨1, ![m]⟩ : Shape)) (N : Fin m)
    (k : Fin ((⟨2, ![m, n]⟩ : Shape).size 1)) : h.lift (ix1 N) k = ix2 N (⟨k.val, k.isLt⟩ : Fin n) := by
  funext d; apply Fin.ext
  fin_cases d <;> rfl

/-- The host's reduce with a maximum body over axis 1 of an m × n array, at row N: the fold of max from the initial
    value over the row's entries. -/
theorem hostReduceMax_row {m n : ℕ} {u : Shape} (x : FVec Ideal ⟨2, ![m, n]⟩ .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (N : Fin m) :
    Host.reduce FloatOps.maximumf x init h' hu (ix1 N)
      = (Finset.univ : Finset (Fin n)).fold max (init (Shape.Idx.first hu)) (fun k => x (ix2 N k)) := by
  rw [Host.reduce_eq_fold_single FloatOps.maximumf x init h' h hu]
  have e : (x ∘ h.lift (ix1 N)) = fun k : Fin n => x (ix2 N k) := funext fun k => congrArg x (lift_row h N k)
  rw [e]; rfl

end Cert.LibRowMax

end
-- ==== Proof.LibRowSumColMax.lean ====
/-
  Two reductions of an a × b array at exact (extended-real) arithmetic, read at an index given by its coordinates:
  the sum along the rows (over the second axis) at row n is the sum of the row's entries, and the maximum down the
  columns (over the first axis) at column o is the maximum, folded from the accumulator's value, of the column's
  entries.  Both are the library's single-axis laws with the reduced index, the dropped coordinate put back, written
  as (n, k) and (k, o).
-/
import proofs.«104438_j4294967296037_2_alg».proof.Proof.LibRowMax
import Idealize.ShloMosaic.PureOps.Ideal.Laws
import Idealize.ShloMosaic.Lib.ValueIdx

noncomputable section

open scoped BigOperators

namespace Cert.LibRowSumColMax

open Idealize.ShloMosaic Idealize.ShloMosaic.ValueIdx

/-- A sum along the rows of an a × b array, at row n: the sum of the row's entries. -/
theorem rowsum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction .add [1] ⟨1, ![a]⟩ v 0x00000000#32 h hφ hacc (ix1 n) = ∑ k : Fin b, v (ix2 n k) :=
  (Ideal.multiReduction_add_single v _ h hφ hacc (ix1 n)).trans
    (Finset.sum_congr rfl fun k _ => congrArg v (Cert.LibRowMax.lift_row h n k))

/-- Putting row k back in front of column o gives (k, o). -/
theorem lift_col {a b : ℕ} (h : (⟨2, ![a, b]⟩ : Shape).Reduces [0] (⟨1, ![b]⟩ : Shape)) (o : Fin b)
    (k : Fin ((⟨2, ![a, b]⟩ : Shape).size 0)) : h.lift (ix1 o) k = ix2 (⟨k.val, k.isLt⟩ : Fin a) o := by
  funext d; apply Fin.ext
  fin_cases d <;> rfl

/-- A maximum down the columns of an a × b array, at column o: the fold of max from the initial value over the column. -/
theorem colmax_apply {a b : ℕ} (v : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (o : Fin b) :
    multiReduction .maximumf [0] ⟨1, ![b]⟩ v acc h hφ hacc (ix1 o)
      = (Finset.univ : Finset (Fin a)).fold max (Ideal.ofBits .f32 acc) (fun n => v (ix2 n o)) := by
  refine (Ideal.multiReduction_maximumf_single v acc h hφ hacc (ix1 o)).trans ?_
  have e : (v ∘ h.lift (ix1 o)) = fun n : Fin a => v (ix2 n o) := funext fun k => congrArg v (lift_col h o k)
  rw [e]; rfl

end Cert.LibRowSumColMax

end
-- ==== Proof.KernelLaplacian.lean ====
/-
  The Laplacian the kernel builds for one graph, read at coordinates.

  The kernel's body, for the graph whose points are the rows of X (1024 × 6) and with the self-loop mask M (1024 × 1024),
  forms the squared norms as a column (a row sum kept as a 1024 × 1 array), the inner products as a matrix product of X
  with its transpose, the exponent (2·gram − sq n) − sq m by broadcasting the column along rows and, transposed, along
  columns, the adjacency exp(…)·M, its row sums, their reciprocal square roots where positive, and
  (0 − dinv n · dinv m) · adj n m.  Each of these arrays is named here and read at an index given by its coordinates;
  composed, they are the specification's Laplacian in the kernel's arrangement.
-/
import proofs.«104438_j4294967296037_2_alg».proof.Proof.Gen.KernelIdeal.Skeleton
import proofs.«104438_j4294967296037_2_alg».proof.Proof.GraphSpec
import proofs.«104438_j4294967296037_2_alg».proof.Proof.LibKeepdims
import proofs.«104438_j4294967296037_2_alg».proof.Proof.LibPlainMatmul
import proofs.«104438_j4294967296037_2_alg».proof.Proof.LibRowSumColMax
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KGraph

open Idealize.ShloMosaic Idealize.ShloMosaic.ValueIdx Cert.KernelIdeal Cert.KernelIdeal.Gen Cert.Graph

/-- The squared norms, as a column. -/
def sqV (X : FVec Ideal S1024x6 .f32) : FVec Ideal S1024x1 .f32 :=
  shapeCast S1024x1 (multiReduction .add [1] S1024 (mulf X X) 0x00000000#32 reduces_S1024x6_S1024 (.inl rfl) rfl) shapeCasts_S1024_S1024x1

theorem sqV_apply (X : FVec Ideal S1024x6 .f32) (n : Fin 1024) (u : Fin 1) :
    sqV X (ix2 n u) = Graph.sq (fun n d => X (ix2 n d)) n := by
  unfold sqV Graph.sq
  refine (Cert.LibKeepdims.shapeCast_a_a1_apply _ shapeCasts_S1024_S1024x1 n u).trans ?_
  exact Cert.LibRowSumColMax.rowsum_apply (mulf X X) _ _ _ n

/-- The inner products: X times its transpose, into zero. -/
def gramV (X : FVec Ideal S1024x6 .f32) : FVec Ideal S1024x1024 .f32 :=
  matmul dot_S1024x6_S6x1024_S1024x1024_1_0_0_1_n_n (some .fp32) X (transpose S6x1024 [1, 0] X transposes_S1024x6_p1_0_S6x1024)
    (constant S1024x1024 .f32 0x00000000#32)

theorem gramV_apply (X : FVec Ideal S1024x6 .f32) (n m : Fin 1024) :
    gramV X (ix2 n m) = gram (fun n d => X (ix2 n d)) n m := by
  unfold gramV gram
  refine (Cert.LibPlainMatmul.matmul_plain_apply (m := 1024) (k := 6) (n := 1024) (some .fp32) X
    (transpose S6x1024 [1, 0] X transposes_S1024x6_p1_0_S6x1024) n m).trans ?_
  refine Finset.sum_congr rfl fun d _ => ?_
  rw [transpose_ix2_apply]

/-- The adjacency: exp of the exponent, times the mask. -/
def adjV (X : FVec Ideal S1024x6 .f32) (M : Vec Ideal S1024x1024 .f32) : FVec Ideal S1024x1024 .f32 :=
  mulf (exp (subf (subf (mulf (broadcast S1024x1024 (Scalar.ofBits .f32 0x40000000#32)) (gramV X))
        (broadcastTo S1024x1024 (sqV X) broadcasts_S1024x1_S1024x1024))
      (broadcastTo S1024x1024 (transpose S1x1024 [1, 0] (sqV X) transposes_S1024x1_p1_0_S1x1024) broadcasts_S1x1024_S1024x1024)))
    (shapeCast S1024x1024 M shapeCasts_S1024x1024_S1024x1024)

theorem adjV_apply (X : FVec Ideal S1024x6 .f32) (M : Vec Ideal S1024x1024 .f32) (n m : Fin 1024) :
    adjV X M (ix2 n m) = adjK (fun n d => X (ix2 n d)) (fun n m => M (ix2 n m)) n m := by
  have e1 : broadcastTo S1024x1024 (sqV X) broadcasts_S1024x1_S1024x1024 (ix2 n m) = Graph.sq (fun n d => X (ix2 n d)) n :=
    (Cert.LibKeepdims.broadcastTo_a1_ab_apply _ _ n m).trans (sqV_apply X n 0)
  have e2 : broadcastTo S1024x1024 (transpose S1x1024 [1, 0] (sqV X) transposes_S1024x1_p1_0_S1x1024) broadcasts_S1x1024_S1024x1024 (ix2 n m)
      = Graph.sq (fun n d => X (ix2 n d)) m :=
    (broadcastTo_1b_ab_apply _ _ n m).trans ((transpose_ix2_apply _ _ 0 m).trans (sqV_apply X m 0))
  have e3 := gramV_apply X n m
  have e4 : shapeCast S1024x1024 M shapeCasts_S1024x1024_S1024x1024 = M := shapeCast_self M _
  show Ideal.exp ((two * gramV X (ix2 n m)
        - broadcastTo S1024x1024 (sqV X) broadcasts_S1024x1_S1024x1024 (ix2 n m))
        - broadcastTo S1024x1024 (transpose S1x1024 [1, 0] (sqV X) transposes_S1024x1_p1_0_S1x1024) broadcasts_S1x1024_S1024x1024 (ix2 n m))
      * shapeCast S1024x1024 M shapeCasts_S1024x1024_S1024x1024 (ix2 n m) = _
  rw [e1, e2, e3, e4]; rfl

/-- The degrees: the adjacency's row sums. -/
def degV (A : FVec Ideal S1024x1024 .f32) : FVec Ideal S1024 .f32 :=
  multiReduction .add [1] S1024 A 0x00000000#32 reduces_S1024x1024_S1024 (.inl rfl) rfl

theorem degV_apply (A : FVec Ideal S1024x1024 .f32) (n : Fin 1024) : degV A (ix1 n) = deg (fun n m => A (ix2 n m)) n :=
  Cert.LibRowSumColMax.rowsum_apply A _ _ _ n

/-- The reciprocal square root of a positive degree, else zero. -/
def dinvV (D : FVec Ideal S1024 .f32) : FVec Ideal S1024 .f32 :=
  select (cmpf .ogt D (broadcast S1024 (Scalar.ofBits .f32 0x00000000#32))) (rsqrt D) (broadcast S1024 (Scalar.ofBits .f32 0x00000000#32))

theorem dinvV_apply (D : FVec Ideal S1024 .f32) (n : Fin 1024) : dinvV D (ix1 n) = dinv (fun n => D (ix1 n)) n := rfl

/-- The scaled Laplacian, in the kernel's arrangement. -/
def lapV (R : FVec Ideal S1024 .f32) (A : FVec Ideal S1024x1024 .f32) : FVec Ideal S1024x1024 .bf16 :=
  truncf .bf16 (mulf (subf (broadcast S1024x1024 (Scalar.ofBits .f32 0x00000000#32))
      (mulf (broadcastTo S1024x1024 (shapeCast S1024x1 R shapeCasts_S1024_S1024x1) broadcasts_S1024x1_S1024x1024)
        (broadcastTo S1024x1024 (shapeCast S1x1024 R shapeCasts_S1024_S1x1024) broadcasts_S1x1024_S1024x1024))) A) bitsLt_bf16_f32

theorem lapV_apply (R : FVec Ideal S1024 .f32) (A : FVec Ideal S1024x1024 .f32) (n m : Fin 1024) :
    lapV R A (ix2 n m) = lapK (fun n => R (ix1 n)) (fun n m => A (ix2 n m)) n m := by
  have e1 : broadcastTo S1024x1024 (shapeCast S1024x1 R shapeCasts_S1024_S1024x1) broadcasts_S1024x1_S1024x1024 (ix2 n m) = R (ix1 n) :=
    (Cert.LibKeepdims.broadcastTo_a1_ab_apply _ _ n m).trans (Cert.LibKeepdims.shapeCast_a_a1_apply R _ n 0)
  have e2 : broadcastTo S1024x1024 (shapeCast S1x1024 R shapeCasts_S1024_S1x1024) broadcasts_S1x1024_S1024x1024 (ix2 n m) = R (ix1 m) :=
    (broadcastTo_1b_ab_apply _ _ n m).trans (shapeCast_a_1a_apply R _ 0 m)
  show (zer - broadcastTo S1024x1024 (shapeCast S1024x1 R shapeCasts_S1024_S1024x1) broadcasts_S1024x1_S1024x1024 (ix2 n m)
        * broadcastTo S1024x1024 (shapeCast S1x1024 R shapeCasts_S1024_S1x1024) broadcasts_S1x1024_S1024x1024 (ix2 n m)) * A (ix2 n m) = _
  rw [e1, e2]; rfl

/-- The graph's points, from the block of the points' array the kernel loads (one graph, a leading unit axis). -/
theorem pay2_apply (v0 : Vec Ideal S1x1024x6 .f32) (n : Fin 1024) (d : Fin 6) :
    k0_pay2 (F := Ideal) v0 (ix2 n d) = v0 (ix3 (0 : Fin 1) n d) :=
  shapeCast_1ab_ab_apply v0 shapeCasts_S1x1024x6_S1024x6 n d

/-- The payload that is the Laplacian is the composition of the arrays above. -/
theorem pay3_eq (v0 : Vec Ideal S1x1024x6 .f32) (v15 : Vec Ideal S1024x1024 .f32) :
    k0_pay3 (F := Ideal) v0 v15 = lapV (dinvV (degV (adjV (k0_pay2 v0) v15))) (adjV (k0_pay2 v0) v15) := rfl

/-- The kernel's Laplacian at (n, m) is the specification's, in the kernel's arrangement, of the loaded points and mask. -/
theorem pay3_apply (v0 : Vec Ideal S1x1024x6 .f32) (v15 : Vec Ideal S1024x1024 .f32) (n m : Fin 1024) :
    k0_pay3 (F := Ideal) v0 v15 (ix2 n m)
      = LK (fun n d => v0 (ix3 (0 : Fin 1) n d)) (fun n m => v15 (ix2 n m)) n m := by
  have hA : (fun n m => adjV (k0_pay2 v0) v15 (ix2 n m))
      = adjK (fun n d => v0 (ix3 (0 : Fin 1) n d)) (fun n m => v15 (ix2 n m)) := by
    funext n m
    rw [adjV_apply]
    exact congrArg (fun X => adjK X (fun n m => v15 (ix2 n m)) n m) (funext fun n => funext fun d => pay2_apply v0 n d)
  have hD : (fun n => dinvV (degV (adjV (k0_pay2 v0) v15)) (ix1 n))
      = dinv (deg (adjK (fun n d => v0 (ix3 (0 : Fin 1) n d)) (fun n m => v15 (ix2 n m)))) := by
    funext n
    rw [dinvV_apply]
    refine congrArg (fun D => dinv D n) (funext fun n => ?_)
    rw [degV_apply, hA]
  rw [pay3_eq, lapV_apply, hA, hD]; rfl

end Cert.KGraph

end
-- ==== Proof.KernelGraph.lean ====
/-
  What the kernel leaves for one graph: the 128 pooled features.

  With the Laplacian L of the graph (KernelLaplacian), the body forms L·T as a matrix product into zero, the recurrence step
  2·(L·T) − T', each feature map T·W_k as a matrix product with the k-th 6 × 128 slice of the weights, their running sum,
  the bias broadcast along rows, the rectifier, and the maximum down each column from −∞.  Each is read at coordinates;
  composed, the one row the body stores is the specification's pooled features, with the Laplacian in the kernel's
  arrangement.
-/
import proofs.«104438_j4294967296037_2_alg».proof.Proof.Gen.KernelIdeal.Frame
import proofs.«104438_j4294967296037_2_alg».proof.Proof.KernelLaplacian

noncomputable section

open scoped BigOperators

namespace Cert.KGraph

open Idealize.ShloMosaic Idealize.ShloMosaic.ValueIdx Cert.KernelIdeal Cert.KernelIdeal.Gen Cert.Graph

/-! ## The matrix products -/

/-- L·T into zero. -/
def lmulV (L : FVec Ideal S1024x1024 .bf16) (T : FVec Ideal S1024x6 .f32) : FVec Ideal S1024x6 .f32 :=
  matmul dot_S1024x1024_S1024x6_S1024x6_1_0_0_1_n_n none L (truncf .bf16 T bitsLt_bf16_f32) (constant S1024x6 .f32 0x00000000#32)

theorem lmulV_fun (L : FVec Ideal S1024x1024 .bf16) (T : FVec Ideal S1024x6 .f32) :
    (fun n f => lmulV L T (ix2 n f)) = lmul (fun n m => L (ix2 n m)) (fun n f => T (ix2 n f)) := by
  funext n f
  exact Cert.LibPlainMatmul.matmul_plain_apply (m := 1024) (k := 1024) (n := 6) none L (truncf .bf16 T bitsLt_bf16_f32) n f

/-- One step of the recurrence: 2·(L·T) − T'. -/
def stepV (L : FVec Ideal S1024x1024 .bf16) (T Tp : FVec Ideal S1024x6 .f32) : FVec Ideal S1024x6 .f32 :=
  subf (mulf (broadcast S1024x6 (Scalar.ofBits .f32 0x40000000#32)) (lmulV L T)) Tp

theorem stepV_fun (L : FVec Ideal S1024x1024 .bf16) (T Tp : FVec Ideal S1024x6 .f32) :
    (fun n f => stepV L T Tp (ix2 n f))
      = step (fun n m => L (ix2 n m)) (fun n f => T (ix2 n f)) (fun n f => Tp (ix2 n f)) := by
  funext n f
  show two * lmulV L T (ix2 n f) - Tp (ix2 n f) = _
  rw [show lmulV L T (ix2 n f) = (fun n f => lmulV L T (ix2 n f)) n f from rfl, lmulV_fun]; rfl

/-- T·W_k into zero, W_k one 6 × 128 slice of the weights as loaded (with a leading unit axis). -/
def projV (T : FVec Ideal S1024x6 .f32) (Wk : Vec Ideal S1x6x128 .f32) : FVec Ideal S1024x128 .f32 :=
  matmul dot_S1024x6_S6x128_S1024x128_1_0_0_1_n_n none (truncf .bf16 T bitsLt_bf16_f32)
    (truncf .bf16 (shapeCast S6x128 Wk shapeCasts_S1x6x128_S6x128) bitsLt_bf16_f32) (constant S1024x128 .f32 0x00000000#32)

theorem projV_fun (T : FVec Ideal S1024x6 .f32) (Wk : Vec Ideal S1x6x128 .f32) :
    (fun n o => projV T Wk (ix2 n o)) = proj (fun n f => T (ix2 n f)) (fun f o => Wk (ix3 (0 : Fin 1) f o)) := by
  funext n o
  unfold projV proj
  refine (Cert.LibPlainMatmul.matmul_plain_apply (m := 1024) (k := 6) (n := 128) none (truncf .bf16 T bitsLt_bf16_f32)
    (truncf .bf16 (shapeCast S6x128 Wk shapeCasts_S1x6x128_S6x128) bitsLt_bf16_f32) n o).trans ?_
  refine Finset.sum_congr rfl fun f _ => ?_
  show T (ix2 n f) * shapeCast S6x128 Wk shapeCasts_S1x6x128_S6x128 (ix2 f o) = _
  rw [shapeCast_1ab_ab_apply]

/-! ## The column maximum and the last stretch of the body -/

/-- The body's last stretch: the sixth feature map added, the bias, the rectifier, the column maximum, as the stored row. -/
def tailV (T5 : FVec Ideal S1024x6 .f32) (acc : FVec Ideal S1024x128 .f32) (W5 : Vec Ideal S1x6x128 .f32)
    (b : Vec Ideal S128 .f32) : FVec Ideal S1x1x128 .f32 :=
  shapeCast S1x1x128 (shapeCast S1x128 (multiReduction .maximumf [0] S128
    (maximumf (addf (addf acc (projV T5 W5))
        (broadcastTo S1024x128 (shapeCast S1x128 b shapeCasts_S128_S1x128) broadcasts_S1x128_S1024x128))
      (broadcast S1024x128 (Scalar.ofBits .f32 0x00000000#32)))
    0xFF800000#32 reduces_S1024x128_S128 (.inl rfl) rfl) shapeCasts_S128_S1x128) shapeCasts_S1x128_S1x1x128

theorem tailV_apply (T5 : FVec Ideal S1024x6 .f32) (acc : FVec Ideal S1024x128 .f32) (W5 : Vec Ideal S1x6x128 .f32)
    (b : Vec Ideal S128 .f32) (o : Fin 128) :
    tailV T5 acc W5 b (ix3 (0 : Fin 1) (0 : Fin 1) o)
      = (Finset.univ : Finset (Fin 1024)).fold max ninf
          (fun n => max ((acc (ix2 n o) + projV T5 W5 (ix2 n o)) + b (ix1 o)) zer) := by
  unfold tailV
  refine (shapeCast_ab_1ab_apply _ shapeCasts_S1x128_S1x1x128 0 0 o).trans ?_
  refine (shapeCast_a_1a_apply _ shapeCasts_S128_S1x128 0 o).trans ?_
  refine (Cert.LibRowSumColMax.colmax_apply _ _ _ _ _ o).trans ?_
  congr 1; funext n
  show max ((acc (ix2 n o) + projV T5 W5 (ix2 n o))
      + broadcastTo S1024x128 (shapeCast S1x128 b shapeCasts_S128_S1x128) broadcasts_S1x128_S1024x128 (ix2 n o)) zer = _
  rw [broadcastTo_1b_ab_apply, shapeCast_a_1a_apply]

/-! ## The loads -/

/-- The k-th 6 × 128 slice of the weights, loaded through the rectangle at offset (k, 0, 0). -/
theorem ld_slice (x2 : Vec Ideal S6x6x128 .f32) (c : ℕ) (hc : c < 6)
    (inb : ∀ a, (![c, 0, 0] : Fin 3 → ℕ) a + S1x6x128.size a ≤ S6x6x128.size a) (f : Fin 6) (o : Fin 128) :
    View.ld x2 (Rect.unit (s := S6x6x128) ![c, 0, 0] S1x6x128.size inb) (ix3 (0 : Fin 1) f o) = x2 (ix3 (⟨c, hc⟩ : Fin 6) f o) := by
  show x2 ((Rect.unit (s := S6x6x128) ![c, 0, 0] S1x6x128.size inb).emb (ix3 (0 : Fin 1) f o)) = _
  refine congrArg x2 (funext fun a => Fin.ext ?_)
  rw [Rect.emb_apply]
  match a with
  | ⟨0, _⟩ => show c + 1 * 0 = c; omega
  | ⟨1, _⟩ => show 0 + 1 * f.val = f.val; omega
  | ⟨2, _⟩ => show 0 + 1 * o.val = o.val; omega

theorem hz3 : (![0, 0, 0] : Fin 3 → ℕ) = fun _ => 0 := by funext a; fin_cases a <;> rfl
theorem hz2 : (![0, 0] : Fin 2 → ℕ) = fun _ => 0 := by funext a; fin_cases a <;> rfl
theorem hz1 : (![0] : Fin 1 → ℕ) = fun _ => 0 := by funext a; fin_cases a <;> rfl

/-! ## The stored row -/

section
variable (x0 : Vec Ideal S1x1024x6 .f32) (x1 : Vec Ideal S1024x1024 .f32) (x2 : Vec Ideal S6x6x128 .f32) (x3 : Vec Ideal S128 .f32)

/-- The one row the body stores, as the named arrays composed. -/
theorem out_eq :
    out0_4 (F := Ideal) x0 x1 x2 x3
      = tailV (stepV (k0_pay3 x0 x1) (k0_pay8 (k0_pay2 x0) (k0_pay3 x0 x1) (k0_pay5 x0 x1)) (k0_pay7 (k0_pay2 x0) (k0_pay3 x0 x1) (k0_pay5 x0 x1)))
          (k0_pay9 (k0_pay2 x0) (k0_pay3 x0 x1) (k0_pay4 x0 (View.ld x2 r0_2)) (k0_pay5 x0 x1) (View.ld x2 r0_3) (View.ld x2 r0_4)
            (View.ld x2 r0_5) (View.ld x2 r0_6))
          (View.ld x2 r0_7) x3 := by
  unfold out0_4
  rw [View.canon_unit_zero hz3]
  simp only [View.ld_unit_zero (S := S1x1024x6) hz3, View.ld_unit_zero (S := S1024x1024) hz2, View.ld_unit_zero (S := S128) hz1]
  rfl

/-- The graph's data as the specification takes them. -/
abbrev Xc : Fin 1024 → Fin 6 → EReal := fun n d => x0 (ix3 (0 : Fin 1) n d)
abbrev Mc : Fin 1024 → Fin 1024 → EReal := fun n m => x1 (ix2 n m)
abbrev Wc : Fin 6 → Fin 6 → Fin 128 → EReal := fun k f o => x2 (ix3 k f o)
abbrev Bc : Fin 128 → EReal := fun o => x3 (ix1 o)

theorem hX : (fun n d => k0_pay2 (F := Ideal) x0 (ix2 n d)) = Xc x0 := funext fun n => funext fun d => pay2_apply x0 n d
theorem hL : (fun n m => k0_pay3 (F := Ideal) x0 x1 (ix2 n m)) = LK (Xc x0) (Mc x1) :=
  funext fun n => funext fun m => pay3_apply x0 x1 n m

theorem hT1 : (fun n f => k0_pay5 (F := Ideal) x0 x1 (ix2 n f)) = T1 (LK (Xc x0) (Mc x1)) (Xc x0) := by
  rw [show k0_pay5 (F := Ideal) x0 x1 = lmulV (k0_pay3 x0 x1) (k0_pay2 x0) from rfl, lmulV_fun, hL, hX]; rfl
theorem hT2 : (fun n f => k0_pay6 (F := Ideal) (k0_pay2 x0) (k0_pay3 x0 x1) (k0_pay5 x0 x1) (ix2 n f)) = T2 (LK (Xc x0) (Mc x1)) (Xc x0) := by
  rw [show k0_pay6 (F := Ideal) (k0_pay2 x0) (k0_pay3 x0 x1) (k0_pay5 x0 x1) = stepV (k0_pay3 x0 x1) (k0_pay5 x0 x1) (k0_pay2 x0) from rfl,
    stepV_fun, hL, hT1, hX]; rfl
theorem hT3 : (fun n f => k0_pay7 (F := Ideal) (k0_pay2 x0) (k0_pay3 x0 x1) (k0_pay5 x0 x1) (ix2 n f)) = T3 (LK (Xc x0) (Mc x1)) (Xc x0) := by
  rw [show k0_pay7 (F := Ideal) (k0_pay2 x0) (k0_pay3 x0 x1) (k0_pay5 x0 x1)
      = stepV (k0_pay3 x0 x1) (k0_pay6 (k0_pay2 x0) (k0_pay3 x0 x1) (k0_pay5 x0 x1)) (k0_pay5 x0 x1) from rfl,
    stepV_fun, hL, hT2, hT1]; rfl
theorem hT4 : (fun n f => k0_pay8 (F := Ideal) (k0_pay2 x0) (k0_pay3 x0 x1) (k0_pay5 x0 x1) (ix2 n f)) = T4 (LK (Xc x0) (Mc x1)) (Xc x0) := by
  rw [show k0_pay8 (F := Ideal) (k0_pay2 x0) (k0_pay3 x0 x1) (k0_pay5 x0 x1)
      = stepV (k0_pay3 x0 x1) (k0_pay7 (k0_pay2 x0) (k0_pay3 x0 x1) (k0_pay5 x0 x1)) (k0_pay6 (k0_pay2 x0) (k0_pay3 x0 x1) (k0_pay5 x0 x1)) from rfl,
    stepV_fun, hL, hT3, hT2]; rfl
theorem hT5 : (fun n f => stepV (k0_pay3 (F := Ideal) x0 x1) (k0_pay8 (k0_pay2 x0) (k0_pay3 x0 x1) (k0_pay5 x0 x1))
      (k0_pay7 (k0_pay2 x0) (k0_pay3 x0 x1) (k0_pay5 x0 x1)) (ix2 n f)) = T5 (LK (Xc x0) (Mc x1)) (Xc x0) := by
  rw [stepV_fun, hL, hT4, hT3]; rfl

/-- The k-th weight slice as loaded is the k-th slice of the weights. -/
theorem hW (c : ℕ) (hc : c < 6) (inb : ∀ a, (![c, 0, 0] : Fin 3 → ℕ) a + S1x6x128.size a ≤ S6x6x128.size a) :
    (fun f o => View.ld x2 (Rect.unit (s := S6x6x128) ![c, 0, 0] S1x6x128.size inb) (ix3 (0 : Fin 1) f o)) = Wc x2 ⟨c, hc⟩ :=
  funext fun f => funext fun o => ld_slice x2 c hc inb f o

/-- A feature map of an array whose coordinates are known, with the c-th weight slice as loaded. -/
theorem projV_at (T : FVec Ideal S1024x6 .f32) (c : ℕ) (hc : c < 6)
    (inb : ∀ a, (![c, 0, 0] : Fin 3 → ℕ) a + S1x6x128.size a ≤ S6x6x128.size a)
    (Ts : Fin 1024 → Fin 6 → EReal) (hT : (fun n f => T (ix2 n f)) = Ts) (n : Fin 1024) (o : Fin 128) :
    projV T (View.ld x2 (Rect.unit (s := S6x6x128) ![c, 0, 0] S1x6x128.size inb)) (ix2 n o) = proj Ts (Wc x2 ⟨c, hc⟩) n o := by
  have h := congrFun (congrFun (projV_fun T (View.ld x2 (Rect.unit (s := S6x6x128) ![c, 0, 0] S1x6x128.size inb))) n) o
  rw [hT, hW x2 c hc inb] at h
  exact h

/-- THE STORED ROW: at column o, the specification's pooled feature of the loaded points, mask, weights and bias, the
    Laplacian in the kernel's arrangement. -/
theorem out_apply (o : Fin 128) :
    out0_4 (F := Ideal) x0 x1 x2 x3 (ix3 (0 : Fin 1) (0 : Fin 1) o)
      = Graph.pool (LK (Xc x0) (Mc x1)) (Xc x0) (Wc x2) (Bc x3) o := by
  rw [out_eq, tailV_apply]
  unfold Graph.pool
  congr 1; funext n
  unfold act feat
  rw [show k0_pay9 (F := Ideal) (k0_pay2 x0) (k0_pay3 x0 x1) (k0_pay4 x0 (View.ld x2 r0_2)) (k0_pay5 x0 x1) (View.ld x2 r0_3)
        (View.ld x2 r0_4) (View.ld x2 r0_5) (View.ld x2 r0_6) (ix2 n o)
      = ((((projV (k0_pay2 x0) (View.ld x2 r0_2) (ix2 n o) + projV (k0_pay5 x0 x1) (View.ld x2 r0_3) (ix2 n o))
          + projV (k0_pay6 (k0_pay2 x0) (k0_pay3 x0 x1) (k0_pay5 x0 x1)) (View.ld x2 r0_4) (ix2 n o))
          + projV (k0_pay7 (k0_pay2 x0) (k0_pay3 x0 x1) (k0_pay5 x0 x1)) (View.ld x2 r0_5) (ix2 n o))
          + projV (k0_pay8 (k0_pay2 x0) (k0_pay3 x0 x1) (k0_pay5 x0 x1)) (View.ld x2 r0_6) (ix2 n o)) from rfl]
  rw [projV_at x2 _ 5 (by omega) inb_S6x6x128_S1x6x128_5_0_0 _ (hT5 x0 x1) n o,
    projV_at x2 _ 0 (by omega) inb_S6x6x128_S1x6x128_0_0_0 _ (hX x0) n o,
    projV_at x2 _ 1 (by omega) inb_S6x6x128_S1x6x128_1_0_0 _ (hT1 x0 x1) n o,
    projV_at x2 _ 2 (by omega) inb_S6x6x128_S1x6x128_2_0_0 _ (hT2 x0 x1) n o,
    projV_at x2 _ 3 (by omega) inb_S6x6x128_S1x6x128_3_0_0 _ (hT3 x0 x1) n o,
    projV_at x2 _ 4 (by omega) inb_S6x6x128_S1x6x128_4_0_0 _ (hT4 x0 x1) n o]
  rfl

end

end Cert.KGraph

end
-- ==== Proof.RefGraph.lean ====
/-
  The reference, one graph at a time: each stage of the reference's computation over the whole batch, read at batch
  member b, is the specification's stage (in the reference's arrangement) of that member's points.

  The reference keeps the batch as a leading axis of every array: the squared norms are a sum over the last axis, the inner
  products a batched product of the points with themselves, the exponent −((sq n − 2·gram n m) + sq m) by broadcasts
  along the other axes, the mask 1 − [n = m] broadcast over the batch, the degrees a sum over the last axis, and the
  scaled Laplacian −((dinv n · adj n m) · dinv m).  The recurrence's products L·T are batched products over the points
  axis, the feature maps T·W_k products of the rank-3 array with the k-th slice of the weights, and the pooling a
  maximum over the points axis from −∞.  The stages are the generated read-at-an-index lemmas, chained.
-/
import proofs.«104438_j4294967296037_2_alg».proof.Proof.RefRead
import proofs.«104438_j4294967296037_2_alg».proof.Proof.GraphSpec
import Idealize.ShloMosaic.Lib.ValueIdx
import Idealize.ShloMosaic.PureOps.Reduce

noncomputable section

open scoped BigOperators

namespace Cert.RGraph

open Idealize.ShloMosaic Idealize.ShloMosaic.ValueIdx Cert.ReferenceIdeal Cert.ReferenceIdeal.Gen Cert.ReferenceIdeal.ReadP Cert.Graph

/-- Two indices are equal when their coordinates are, axis by axis. -/
macro "idx_tac" : tactic =>
  `(tactic| (funext a; apply Fin.ext; fin_cases a <;> first | rfl | (dsimp only; omega) | (simp; omega)))

abbrev Arr (s : Shape) : Type := (⟨s, .f32⟩ : BufTy).Contents (Elt Ideal)

section
variable (x0 : Arr S32768x6) (x2 : Arr S6x6x128) (x3 : Arr S128) (b : Fin 32)

/-- Member b's points, the mask, the weights and the bias, as the specification takes them. -/
abbrev Xr : Fin 1024 → Fin 6 → EReal := fun n d => val_main_v0 (F := Ideal) x0 (ix3 b n d)
abbrev Mr : Fin 1024 → Fin 1024 → EReal := fun n m => val_main_v21 (F := Ideal) (ix2 n m)
abbrev Wr : Fin 6 → Fin 6 → Fin 128 → EReal := fun k f o => x2 (ix3 k f o)
abbrev Br : Fin 128 → EReal := fun o => x3 (ix1 o)

/-! ## The Laplacian -/

theorem sq_r (n : Fin 1024) : val_main_v2 (F := Ideal) x0 (ix2 b n) = Graph.sq (Xr x0 b) n := by
  rw [val_main_v2_apply]
  show zer + ∑ k : Fin 6, val_main_v1 (F := Ideal) x0 (idx_main_v2 (ix2 b n) k) = _
  rw [zer_eq, zero_add]
  refine Finset.sum_congr rfl fun k _ => ?_
  rw [show idx_main_v2 (ix2 b n) k = ix3 b n k from by idx_tac]; rfl

theorem gram_r (n m : Fin 1024) : val_main_v4 (F := Ideal) x0 (ix3 b n m) = gram (Xr x0 b) n m := by
  rw [val_main_v4_apply]
  refine Finset.sum_congr rfl fun k _ => ?_
  rw [show lidx_main_v4 (ix3 b n m) k = ix3 b n k from by idx_tac, show ridx_main_v4 (ix3 b n m) k = ix3 b m k from by idx_tac]

theorem adj_r (n m : Fin 1024) : val_main_v24 (F := Ideal) x0 (ix3 b n m) = adjR (Xr x0 b) Mr n m := by
  have e7 : val_main_v7 (F := Ideal) x0 (ix3 b n m) = Graph.sq (Xr x0 b) n := by
    rw [val_main_v7_apply, val_main_v3_apply, show idx_main_v3 (idx_main_v7 (ix3 b n m)) = ix2 b n from by idx_tac, sq_r]
  have e10 : val_main_v10 (F := Ideal) x0 (ix3 b n m) = Graph.sq (Xr x0 b) m := by
    rw [val_main_v10_apply, val_main_v9_apply, val_main_v3_apply,
      show idx_main_v3 (idx_main_v9 (idx_main_v10 (ix3 b n m))) = ix2 b m from by idx_tac, sq_r]
  have e5 : val_main_v5 (F := Ideal) (ix3 b n m) = two := by rw [val_main_v5_apply]; rfl
  have e23 : val_main_v23 (F := Ideal) (ix3 b n m) = Mr n m := by
    rw [val_main_v23_apply, val_main_v22_apply, show idx_main_v22 (idx_main_v23 (ix3 b n m)) = ix2 n m from by idx_tac]
  show Ideal.exp (-((val_main_v7 (F := Ideal) x0 (ix3 b n m) - val_main_v5 (F := Ideal) (ix3 b n m) * val_main_v4 (F := Ideal) x0 (ix3 b n m))
      + val_main_v10 (F := Ideal) x0 (ix3 b n m))) * val_main_v23 (F := Ideal) (ix3 b n m) = _
  rw [e7, e10, e5, e23, gram_r]; rfl

theorem deg_r (n : Fin 1024) : val_main_v25 (F := Ideal) x0 (ix2 b n) = deg (adjR (Xr x0 b) Mr) n := by
  rw [val_main_v25_apply]
  show zer + ∑ k : Fin 1024, val_main_v24 (F := Ideal) x0 (idx_main_v25 (ix2 b n) k) = _
  rw [zer_eq, zero_add]
  refine Finset.sum_congr rfl fun k _ => ?_
  rw [show idx_main_v25 (ix2 b n) k = ix3 b n k from by idx_tac, adj_r]

theorem dinv_r (n : Fin 1024) : val_main_v29 (F := Ideal) x0 (ix2 b n) = dinv (deg (adjR (Xr x0 b) Mr)) n := by
  have e26 : val_main_v26 (F := Ideal) (ix2 b n) = zer := by rw [val_main_v26_apply]; rfl
  have ec : val_main_call0_v1 (F := Ideal) (ix2 b n) = zer := by rw [val_main_call0_v1_apply]; rfl
  show Scalar.select (Ideal.cmp .ogt (val_main_v25 (F := Ideal) x0 (ix2 b n)) (val_main_v26 (F := Ideal) (ix2 b n)))
      (Ideal.rsqrt (val_main_v25 (F := Ideal) x0 (ix2 b n))) (val_main_call0_v1 (F := Ideal) (ix2 b n)) = _
  rw [e26, ec, deg_r]; rfl

theorem lap_r (n m : Fin 1024) : val_main_v36 (F := Ideal) x0 (ix3 b n m) = LR (Xr x0 b) Mr n m := by
  have e31 : val_main_v31 (F := Ideal) x0 (ix3 b n m) = dinv (deg (adjR (Xr x0 b) Mr)) n := by
    rw [val_main_v31_apply, val_main_v30_apply, show idx_main_v30 (idx_main_v31 (ix3 b n m)) = ix2 b n from by idx_tac, dinv_r]
  have e34 : val_main_v34 (F := Ideal) x0 (ix3 b n m) = dinv (deg (adjR (Xr x0 b) Mr)) m := by
    rw [val_main_v34_apply, val_main_v33_apply, show idx_main_v33 (idx_main_v34 (ix3 b n m)) = ix2 b m from by idx_tac, dinv_r]
  show -((val_main_v31 (F := Ideal) x0 (ix3 b n m) * val_main_v24 (F := Ideal) x0 (ix3 b n m)) * val_main_v34 (F := Ideal) x0 (ix3 b n m)) = _
  rw [e31, e34, adj_r]; rfl

/-! ## The recurrence -/

theorem T1_r : (fun n f => val_main_v40 (F := Ideal) x0 (ix3 b n f)) = T1 (LR (Xr x0 b) Mr) (Xr x0 b) := by
  funext n f
  rw [val_main_v40_apply]
  show _ = ∑ k : Fin 1024, LR (Xr x0 b) Mr n k * Xr x0 b k f
  refine Finset.sum_congr rfl fun k _ => ?_
  rw [show lidx_main_v40 (ix3 b n f) k = ix3 b n k from by idx_tac,
    show ridx_main_v40 (ix3 b n f) k = ix3 b k f from by idx_tac, lap_r]

theorem T2_r : (fun n f => val_main_v48 (F := Ideal) x0 (ix3 b n f)) = T2 (LR (Xr x0 b) Mr) (Xr x0 b) := by
  funext n f
  have ec : val_main_v46 (F := Ideal) (ix3 b n f) = two := by rw [val_main_v46_apply]; rfl
  have ed : val_main_v45 (F := Ideal) x0 (ix3 b n f) = lmul (LR (Xr x0 b) Mr) (T1 (LR (Xr x0 b) Mr) (Xr x0 b)) n f := by
    rw [val_main_v45_apply]
    refine Finset.sum_congr rfl fun k _ => ?_
    rw [show lidx_main_v45 (ix3 b n f) k = ix3 b n k from by idx_tac,
      show ridx_main_v45 (ix3 b n f) k = ix3 b k f from by idx_tac, lap_r]
    exact congrArg ((LR (Xr x0 b) Mr) n k * ·) (congrFun (congrFun (T1_r x0 b) k) f)
  have ep : val_main_v0 (F := Ideal) x0 (ix3 b n f) = (Xr x0 b) n f := rfl
  show val_main_v46 (F := Ideal) (ix3 b n f) * val_main_v45 (F := Ideal) x0 (ix3 b n f) - val_main_v0 (F := Ideal) x0 (ix3 b n f) = _
  rw [ec, ed, ep]; rfl

theorem T3_r : (fun n f => val_main_v56 (F := Ideal) x0 (ix3 b n f)) = T3 (LR (Xr x0 b) Mr) (Xr x0 b) := by
  funext n f
  have ec : val_main_v54 (F := Ideal) (ix3 b n f) = two := by rw [val_main_v54_apply]; rfl
  have ed : val_main_v53 (F := Ideal) x0 (ix3 b n f) = lmul (LR (Xr x0 b) Mr) (T2 (LR (Xr x0 b) Mr) (Xr x0 b)) n f := by
    rw [val_main_v53_apply]
    refine Finset.sum_congr rfl fun k _ => ?_
    rw [show lidx_main_v53 (ix3 b n f) k = ix3 b n k from by idx_tac,
      show ridx_main_v53 (ix3 b n f) k = ix3 b k f from by idx_tac, lap_r]
    exact congrArg ((LR (Xr x0 b) Mr) n k * ·) (congrFun (congrFun (T2_r x0 b) k) f)
  have ep : val_main_v40 (F := Ideal) x0 (ix3 b n f) = (T1 (LR (Xr x0 b) Mr) (Xr x0 b)) n f := congrFun (congrFun (T1_r x0 b) n) f
  show val_main_v54 (F := Ideal) (ix3 b n f) * val_main_v53 (F := Ideal) x0 (ix3 b n f) - val_main_v40 (F := Ideal) x0 (ix3 b n f) = _
  rw [ec, ed, ep]; rfl

theorem T4_r : (fun n f => val_main_v64 (F := Ideal) x0 (ix3 b n f)) = T4 (LR (Xr x0 b) Mr) (Xr x0 b) := by
  funext n f
  have ec : val_main_v62 (F := Ideal) (ix3 b n f) = two := by rw [val_main_v62_apply]; rfl
  have ed : val_main_v61 (F := Ideal) x0 (ix3 b n f) = lmul (LR (Xr x0 b) Mr) (T3 (LR (Xr x0 b) Mr) (Xr x0 b)) n f := by
    rw [val_main_v61_apply]
    refine Finset.sum_congr rfl fun k _ => ?_
    rw [show lidx_main_v61 (ix3 b n f) k = ix3 b n k from by idx_tac,
      show ridx_main_v61 (ix3 b n f) k = ix3 b k f from by idx_tac, lap_r]
    exact congrArg ((LR (Xr x0 b) Mr) n k * ·) (congrFun (congrFun (T3_r x0 b) k) f)
  have ep : val_main_v48 (F := Ideal) x0 (ix3 b n f) = (T2 (LR (Xr x0 b) Mr) (Xr x0 b)) n f := congrFun (congrFun (T2_r x0 b) n) f
  show val_main_v62 (F := Ideal) (ix3 b n f) * val_main_v61 (F := Ideal) x0 (ix3 b n f) - val_main_v48 (F := Ideal) x0 (ix3 b n f) = _
  rw [ec, ed, ep]; rfl

theorem T5_r : (fun n f => val_main_v72 (F := Ideal) x0 (ix3 b n f)) = T5 (LR (Xr x0 b) Mr) (Xr x0 b) := by
  funext n f
  have ec : val_main_v70 (F := Ideal) (ix3 b n f) = two := by rw [val_main_v70_apply]; rfl
  have ed : val_main_v69 (F := Ideal) x0 (ix3 b n f) = lmul (LR (Xr x0 b) Mr) (T4 (LR (Xr x0 b) Mr) (Xr x0 b)) n f := by
    rw [val_main_v69_apply]
    refine Finset.sum_congr rfl fun k _ => ?_
    rw [show lidx_main_v69 (ix3 b n f) k = ix3 b n k from by idx_tac,
      show ridx_main_v69 (ix3 b n f) k = ix3 b k f from by idx_tac, lap_r]
    exact congrArg ((LR (Xr x0 b) Mr) n k * ·) (congrFun (congrFun (T4_r x0 b) k) f)
  have ep : val_main_v56 (F := Ideal) x0 (ix3 b n f) = (T3 (LR (Xr x0 b) Mr) (Xr x0 b)) n f := congrFun (congrFun (T3_r x0 b) n) f
  show val_main_v70 (F := Ideal) (ix3 b n f) * val_main_v69 (F := Ideal) x0 (ix3 b n f) - val_main_v56 (F := Ideal) x0 (ix3 b n f) = _
  rw [ec, ed, ep]; rfl

/-! ## The feature maps -/

theorem W0_r (f : Fin 6) (o : Fin 128) : val_main_v38 (F := Ideal) x2 (ix2 f o) = Wr x2 0 f o := by
  rw [val_main_v38_apply, val_main_v37_apply]
  have hf := f.isLt; have ho := o.isLt
  refine congrArg x2 (funext fun a => Fin.ext ?_)
  match a with
  | ⟨0, _⟩ => rfl
  | ⟨1, _⟩ => show (f.val * 128 + o.val) / 128 % 6 = f.val; omega
  | ⟨2, _⟩ => show (f.val * 128 + o.val) % 128 = o.val; omega

theorem P0_r : (fun n o => val_main_v39 (F := Ideal) x0 x2 (ix3 b n o)) = proj (Xr x0 b) (Wr x2 0) := by
  funext n o
  rw [val_main_v39_apply]
  unfold proj
  refine Finset.sum_congr rfl fun k _ => ?_
  rw [show lidx_main_v39 (ix3 b n o) k = ix3 b n k from by idx_tac,
    show ridx_main_v39 (ix3 b n o) k = ix2 k o from by idx_tac, W0_r]

theorem W1_r (f : Fin 6) (o : Fin 128) : val_main_v42 (F := Ideal) x2 (ix2 f o) = Wr x2 1 f o := by
  rw [val_main_v42_apply, val_main_v41_apply]
  have hf := f.isLt; have ho := o.isLt
  refine congrArg x2 (funext fun a => Fin.ext ?_)
  match a with
  | ⟨0, _⟩ => rfl
  | ⟨1, _⟩ => show (f.val * 128 + o.val) / 128 % 6 = f.val; omega
  | ⟨2, _⟩ => show (f.val * 128 + o.val) % 128 = o.val; omega

theorem P1_r : (fun n o => val_main_v43 (F := Ideal) x0 x2 (ix3 b n o)) = proj (T1 (LR (Xr x0 b) Mr) (Xr x0 b)) (Wr x2 1) := by
  funext n o
  rw [val_main_v43_apply]
  unfold proj
  refine Finset.sum_congr rfl fun k _ => ?_
  rw [show lidx_main_v43 (ix3 b n o) k = ix3 b n k from by idx_tac,
    show ridx_main_v43 (ix3 b n o) k = ix2 k o from by idx_tac, W1_r]
  exact congrArg (· * Wr x2 1 k o) (congrFun (congrFun (T1_r x0 b) n) k)

theorem W2_r (f : Fin 6) (o : Fin 128) : val_main_v50 (F := Ideal) x2 (ix2 f o) = Wr x2 2 f o := by
  rw [val_main_v50_apply, val_main_v49_apply]
  have hf := f.isLt; have ho := o.isLt
  refine congrArg x2 (funext fun a => Fin.ext ?_)
  match a with
  | ⟨0, _⟩ => rfl
  | ⟨1, _⟩ => show (f.val * 128 + o.val) / 128 % 6 = f.val; omega
  | ⟨2, _⟩ => show (f.val * 128 + o.val) % 128 = o.val; omega

theorem P2_r : (fun n o => val_main_v51 (F := Ideal) x0 x2 (ix3 b n o)) = proj (T2 (LR (Xr x0 b) Mr) (Xr x0 b)) (Wr x2 2) := by
  funext n o
  rw [val_main_v51_apply]
  unfold proj
  refine Finset.sum_congr rfl fun k _ => ?_
  rw [show lidx_main_v51 (ix3 b n o) k = ix3 b n k from by idx_tac,
    show ridx_main_v51 (ix3 b n o) k = ix2 k o from by idx_tac, W2_r]
  exact congrArg (· * Wr x2 2 k o) (congrFun (congrFun (T2_r x0 b) n) k)

theorem W3_r (f : Fin 6) (o : Fin 128) : val_main_v58 (F := Ideal) x2 (ix2 f o) = Wr x2 3 f o := by
  rw [val_main_v58_apply, val_main_v57_apply]
  have hf := f.isLt; have ho := o.isLt
  refine congrArg x2 (funext fun a => Fin.ext ?_)
  match a with
  | ⟨0, _⟩ => rfl
  | ⟨1, _⟩ => show (f.val * 128 + o.val) / 128 % 6 = f.val; omega
  | ⟨2, _⟩ => show (f.val * 128 + o.val) % 128 = o.val; omega

theorem P3_r : (fun n o => val_main_v59 (F := Ideal) x0 x2 (ix3 b n o)) = proj (T3 (LR (Xr x0 b) Mr) (Xr x0 b)) (Wr x2 3) := by
  funext n o
  rw [val_main_v59_apply]
  unfold proj
  refine Finset.sum_congr rfl fun k _ => ?_
  rw [show lidx_main_v59 (ix3 b n o) k = ix3 b n k from by idx_tac,
    show ridx_main_v59 (ix3 b n o) k = ix2 k o from by idx_tac, W3_r]
  exact congrArg (· * Wr x2 3 k o) (congrFun (congrFun (T3_r x0 b) n) k)

theorem W4_r (f : Fin 6) (o : Fin 128) : val_main_v66 (F := Ideal) x2 (ix2 f o) = Wr x2 4 f o := by
  rw [val_main_v66_apply, val_main_v65_apply]
  have hf := f.isLt; have ho := o.isLt
  refine congrArg x2 (funext fun a => Fin.ext ?_)
  match a with
  | ⟨0, _⟩ => rfl
  | ⟨1, _⟩ => show (f.val * 128 + o.val) / 128 % 6 = f.val; omega
  | ⟨2, _⟩ => show (f.val * 128 + o.val) % 128 = o.val; omega

theorem P4_r : (fun n o => val_main_v67 (F := Ideal) x0 x2 (ix3 b n o)) = proj (T4 (LR (Xr x0 b) Mr) (Xr x0 b)) (Wr x2 4) := by
  funext n o
  rw [val_main_v67_apply]
  unfold proj
  refine Finset.sum_congr rfl fun k _ => ?_
  rw [show lidx_main_v67 (ix3 b n o) k = ix3 b n k from by idx_tac,
    show ridx_main_v67 (ix3 b n o) k = ix2 k o from by idx_tac, W4_r]
  exact congrArg (· * Wr x2 4 k o) (congrFun (congrFun (T4_r x0 b) n) k)

theorem W5_r (f : Fin 6) (o : Fin 128) : val_main_v74 (F := Ideal) x2 (ix2 f o) = Wr x2 5 f o := by
  rw [val_main_v74_apply, val_main_v73_apply]
  have hf := f.isLt; have ho := o.isLt
  refine congrArg x2 (funext fun a => Fin.ext ?_)
  match a with
  | ⟨0, _⟩ => rfl
  | ⟨1, _⟩ => show (f.val * 128 + o.val) / 128 % 6 = f.val; omega
  | ⟨2, _⟩ => show (f.val * 128 + o.val) % 128 = o.val; omega

theorem P5_r : (fun n o => val_main_v75 (F := Ideal) x0 x2 (ix3 b n o)) = proj (T5 (LR (Xr x0 b) Mr) (Xr x0 b)) (Wr x2 5) := by
  funext n o
  rw [val_main_v75_apply]
  unfold proj
  refine Finset.sum_congr rfl fun k _ => ?_
  rw [show lidx_main_v75 (ix3 b n o) k = ix3 b n k from by idx_tac,
    show ridx_main_v75 (ix3 b n o) k = ix2 k o from by idx_tac, W5_r]
  exact congrArg (· * Wr x2 5 k o) (congrFun (congrFun (T5_r x0 b) n) k)

theorem feat_r (n : Fin 1024) (o : Fin 128) :
    val_main_v76 (F := Ideal) x0 x2 (ix3 b n o) = feat (LR (Xr x0 b) Mr) (Xr x0 b) (Wr x2) n o := by
  show (((((val_main_v39 (F := Ideal) x0 x2 (ix3 b n o) + val_main_v43 (F := Ideal) x0 x2 (ix3 b n o)) + val_main_v51 (F := Ideal) x0 x2 (ix3 b n o))
      + val_main_v59 (F := Ideal) x0 x2 (ix3 b n o)) + val_main_v67 (F := Ideal) x0 x2 (ix3 b n o)) + val_main_v75 (F := Ideal) x0 x2 (ix3 b n o)) = _
  rw [congrFun (congrFun (P0_r x0 x2 b) n) o, congrFun (congrFun (P1_r x0 x2 b) n) o, congrFun (congrFun (P2_r x0 x2 b) n) o,
    congrFun (congrFun (P3_r x0 x2 b) n) o, congrFun (congrFun (P4_r x0 x2 b) n) o, congrFun (congrFun (P5_r x0 x2 b) n) o]
  rfl

/-! ## Bias, rectifier, pooling -/

theorem act_r (n : Fin 1024) (o : Fin 128) :
    val_main_v80 (F := Ideal) x0 x2 x3 (ix3 b n o) = act (LR (Xr x0 b) Mr) (Xr x0 b) (Wr x2) (Br x3) n o := by
  have e78 : val_main_v78 (F := Ideal) x3 (ix3 b n o) = Br x3 o := by
    rw [val_main_v78_apply, val_main_v77_apply, show idx_main_v77 (idx_main_v78 (ix3 b n o)) = ix1 o from by idx_tac]
  have ec : val_main_call1_v0 (F := Ideal) (ix3 b n o) = zer := by rw [val_main_call1_v0_apply]; rfl
  show max (val_main_v76 (F := Ideal) x0 x2 (ix3 b n o) + val_main_v78 (F := Ideal) x3 (ix3 b n o)) (val_main_call1_v0 (F := Ideal) (ix3 b n o)) = _
  rw [e78, ec, feat_r]; rfl

theorem pool_r (o : Fin 128) :
    val_main_v81 (F := Ideal) x0 x2 x3 (ix2 b o) = pool (LR (Xr x0 b) Mr) (Xr x0 b) (Wr x2) (Br x3) o := by
  have h : S32x1024x128.Reduces [1] S32x128 := by decide
  unfold val_main_v81
  rw [Host.reduce_eq_fold_single FloatOps.maximumf _ _ reducesTo_S32x1024x128_S32x128_d1 h h_S_]
  have e : (val_main_v80 (F := Ideal) x0 x2 x3 ∘ h.lift (ix2 b o)) = fun n : Fin 1024 => act (LR (Xr x0 b) Mr) (Xr x0 b) (Wr x2) (Br x3) n o :=
    funext fun k => by
      show val_main_v80 (F := Ideal) x0 x2 x3 (h.lift (ix2 b o) k) = _
      rw [show h.lift (ix2 b o) k = ix3 b (⟨k.val, k.isLt⟩ : Fin 1024) o from by idx_tac]
      exact act_r x0 x2 x3 b _ o
  rw [e]; rfl

end

end Cert.RGraph

end
-- ==== Proof.KernelValue.lean ====
/-
  The kernel's run, read as values: the array the region writes holds, for every graph t and feature o, the reference's
  pooled feature of that graph; the host operations after the region then compute the reference's result.

  The region finds the points reshaped to 32 × 1024 × 6 and the mask 1 − [n = m], both computed by the host operations
  before it, exactly as the reference computes them.  At grid point t the body is given graph t's points (block t of the
  reshaped array), the whole mask, the whole weights and bias, and stores one row of 128 numbers, which is written back
  as block t of the 32 × 1 × 128 output; the 32 blocks tile it.  The stored row is the specification's pooled
  features with the Laplacian in the kernel's arrangement (KernelGraph); the reference's pooled features are the same
  with the Laplacian in the reference's arrangement (RefGraph); on real points the two arrangements agree (GraphSpec).
-/
import proofs.«104438_j4294967296037_2_alg».proof.Proof.Gen.KernelIdeal.Frame
import proofs.«104438_j4294967296037_2_alg».proof.Proof.KernelGraph
import proofs.«104438_j4294967296037_2_alg».proof.Proof.RefGraph
import Idealize.ShloMosaic.Lib.Pipeline.Value
import Idealize.ShloMosaic.Lib.StableHlo.Run

set_option maxRecDepth 65536

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.Graph
open Idealize.ShloMosaic.Pipeline (Dat)

variable (m : (ℓ : Loc nD τ sig) → Buf (Elt Ideal) ℓ) (ρ : Dev nD → PrngReg)

/-- The argument arrays as launched. -/
abbrev A0 (c : Dev nD) : Cert.RGraph.Arr Cert.ReferenceIdeal.S32768x6 := m ((c : Thread nD τ).loc main_arg0)
abbrev A2 (c : Dev nD) : Cert.RGraph.Arr Cert.ReferenceIdeal.S6x6x128 := m ((c : Thread nD τ).loc main_arg2)
abbrev A3 (c : Dev nD) : Cert.RGraph.Arr Cert.ReferenceIdeal.S128 := m ((c : Thread nD τ).loc main_arg3)
abbrev A4 (c : Dev nD) : Cert.RGraph.Arr Cert.ReferenceIdeal.S128x10 := m ((c : Thread nD τ).loc main_arg4)
abbrev A5 (c : Dev nD) : Cert.RGraph.Arr Cert.ReferenceIdeal.S10 := m ((c : Thread nD τ).loc main_arg5)

/-! ## What the region finds -/

/-- The points, reshaped by the host before the region: the reference's reshaped points. -/
theorem V_v0 (c : Dev nD) :
    (V m c main_v0 : S32x1024x6.Idx → EReal) = Cert.ReferenceIdeal.ReadP.val_main_v0 (F := Ideal) (A0 m c) := by
  show StableHlo.after hostOps0 (fun b => m (c, b)) (Proc.devRef .tc main_v0) = _
  after_results; rfl

/-- The mask, computed by the host before the region: the reference's mask. -/
theorem V_v8 (c : Dev nD) :
    (V m c main_v8 : S1024x1024.Idx → EReal) = Cert.ReferenceIdeal.ReadP.val_main_v21 (F := Ideal) := by
  show StableHlo.after hostOps0 (fun b => m (c, b)) (Proc.devRef .tc main_v8) = _
  after_results; rfl

/-! ## The windows' blocks -/

theorem tlt (t : Fin cfg0.N) : t.val < 32 := by have h := t.isLt; have e : cfg0.N = 32 := N_0; omega

/-- The printed index maps, decided over the grid: the points' and the output's windows move with the graph's number
    along the leading axis; the mask, the weights and the bias stay. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Graph t's points as the body is given them. -/
theorem blk0 (c : Dev nD) (t : Fin cfg0.N) (n : Fin 1024) (d : Fin 6) :
    iblk m c 0 t (ix3 (0 : Fin 1) n d) = (V m c main_v0 : S32x1024x6.Idx → EReal) (ix3 (⟨t.val, tlt t⟩ : Fin 32) n d) := by
  obtain ⟨e0, e1, e2⟩ := idx0 t
  show V m c main_v0 (((cfg0.win 0).blk t).view.emb (ix3 (0 : Fin 1) n d)) = _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 6 + 1 * d.val = d.val; omega

/-- The mask as the body is given it: the whole mask. -/
theorem blk1 (c : Dev nD) (t : Fin cfg0.N) (n k : Fin 1024) :
    iblk m c 1 t (ix2 n k) = (V m c main_v8 : S1024x1024.Idx → EReal) (ix2 n k) := by
  obtain ⟨e0, e1⟩ := idx1 t
  show V m c main_v8 (((cfg0.win 1).blk t).view.emb (ix2 n k)) = _
  refine congrArg (V m c main_v8) (funext fun a => Fin.ext ?_)
  match a with
  | ⟨0, _⟩ => show win0_1.index t (0 : Fin 2) * 1024 + 1 * n.val = n.val; omega
  | ⟨1, _⟩ => show win0_1.index t (1 : Fin 2) * 1024 + 1 * k.val = k.val; omega

/-- The weights as the body is given them: the whole array. -/
theorem blk2 (c : Dev nD) (t : Fin cfg0.N) (k f : Fin 6) (o : Fin 128) :
    iblk m c 2 t (ix3 k f o) = A2 m c (ix3 k f o) := by
  obtain ⟨e0, e1, e2⟩ := idx2 t
  show V m c main_arg2 (((cfg0.win 2).blk t).view.emb (ix3 k f o)) = _
  rw [V_main_arg2]
  refine congrArg (m ((c : Thread nD τ).loc main_arg2)) (funext fun a => Fin.ext ?_)
  match a with
  | ⟨0, _⟩ => show win0_2.index t (0 : Fin 3) * 6 + 1 * k.val = k.val; omega
  | ⟨1, _⟩ => show win0_2.index t (1 : Fin 3) * 6 + 1 * f.val = f.val; omega
  | ⟨2, _⟩ => show win0_2.index t (2 : Fin 3) * 128 + 1 * o.val = o.val; omega

/-- The bias as the body is given it: the whole array. -/
theorem blk3 (c : Dev nD) (t : Fin cfg0.N) (o : Fin 128) : iblk m c 3 t (ix1 o) = A3 m c (ix1 o) := by
  have e0 := idx3 t
  show V m c main_arg3 (((cfg0.win 3).blk t).view.emb (ix1 o)) = _
  rw [V_main_arg3]
  refine congrArg (m ((c : Thread nD τ).loc main_arg3)) (funext fun a => Fin.ext ?_)
  match a with
  | ⟨0, _⟩ => show win0_3.index t (0 : Fin 1) * 128 + 1 * o.val = o.val; omega

/-! ## The output array -/

/-- What the output array ends holding: at (t, ·, o) the reference's pooled feature o of graph t. -/
def Gout (c : Dev nD) : S32x1x128.Idx → EReal :=
  fun i => Cert.ReferenceIdeal.ReadP.val_main_v81 (F := Ideal) (A0 m c) (A2 m c) (A3 m c) (ix2 (i 0) (i 2))

theorem Gout_apply (c : Dev nD) (g : Fin 32) (u : Fin 1) (o : Fin 128) :
    Gout m c (ix3 g u o) = Cert.ReferenceIdeal.ReadP.val_main_v81 (F := Ideal) (A0 m c) (A2 m c) (A3 m c) (ix2 g o) := rfl

/-- Block t of any 32 × 1 × 128 array, read at its one row: row t of the array. -/
theorem read_blk4 (G : S32x1x128.Idx → EReal) (t : Fin cfg0.N) (o : Fin 128) :
    ((cfg0.win 4).blk t).view.read (Elt Ideal) G (ix3 (0 : Fin 1) (0 : Fin 1) o : S1x1x128.Idx)
      = G (ix3 (⟨t.val, tlt t⟩ : Fin 32) (0 : Fin 1) o) := by
  obtain ⟨e0, e1, e2⟩ := idx4 t
  show G (((cfg0.win 4).blk t).view.emb (ix3 (0 : Fin 1) (0 : Fin 1) o)) = _
  refine congrArg G (funext fun a => Fin.ext ?_)
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 128 + 1 * o.val = o.val; omega

/-- WHAT POINT t WRITES BACK is block t of that array, when the points are real numbers. -/
theorem flushed_eq (c : Dev nD) (hreal : ∀ i, ∃ r : ℝ, A0 m c i = (r : EReal)) (t : Fin cfg0.N) :
    (dats m 0 c).flushed 4 t = ((cfg0.win 4).blk t).view.read (Elt Ideal) (Gout m c) := by
  show (cfg0.win 4).cut (grid0.coords t) ((dats m 0 c).after 4 t) = _
  rw [after0_4]
  funext j
  obtain ⟨o, rfl⟩ : ∃ o : Fin 128, j = (ix3 (0 : Fin 1) (0 : Fin 1) o : S1x1x128.Idx) :=
    ⟨j 2, funext fun a => Fin.ext (by
      match a with
      | ⟨0, _⟩ => have h : (j 0).val < 1 := (j 0).isLt; show (j 0).val = 0; omega
      | ⟨1, _⟩ => have h : (j 1).val < 1 := (j 1).isLt; show (j 1).val = 0; omega
      | ⟨2, _⟩ => rfl)⟩
  show out0_4 (F := Ideal) (iblk m c 0 t) (iblk m c 1 t) (iblk m c 2 t) (iblk m c 3 t) (ix3 (0 : Fin 1) (0 : Fin 1) o) = _
  rw [Cert.KGraph.out_apply, read_blk4 (Gout m c) t o, Gout_apply]
  rw [Cert.RGraph.pool_r]
  have hX : Cert.KGraph.Xc (iblk m c 0 t) = Cert.RGraph.Xr (A0 m c) ⟨t.val, tlt t⟩ := by
    funext n d
    show iblk m c 0 t (ix3 (0 : Fin 1) n d) = _
    rw [blk0, V_v0]
  have hM : Cert.KGraph.Mc (iblk m c 1 t) = Cert.RGraph.Mr := by
    funext n k
    show iblk m c 1 t (ix2 n k) = _
    rw [blk1, V_v8]
  have hW : Cert.KGraph.Wc (iblk m c 2 t) = Cert.RGraph.Wr (A2 m c) := by
    funext k f o; exact blk2 m c t k f o
  have hB : Cert.KGraph.Bc (iblk m c 3 t) = Cert.RGraph.Br (A3 m c) := by
    funext o; exact blk3 m c t o
  rw [hX, hM, hW, hB]
  have hXr : ∀ n d, ∃ r : ℝ, Cert.RGraph.Xr (A0 m c) ⟨t.val, tlt t⟩ n d = (r : EReal) := fun n d => by
    show ∃ r : ℝ, Cert.ReferenceIdeal.ReadP.val_main_v0 (F := Ideal) (A0 m c) _ = (r : EReal)
    rw [Cert.ReferenceIdeal.ReadP.val_main_v0_apply]
    exact hreal _
  rw [LK_eq_LR _ _ hXr]

/-- An index of the output is in point t's block iff each coordinate is in the block's range on its axis. -/
theorem mem_blk4 (t : Fin cfg0.N) (i : S32x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v9).slice (win0_4.rect t)).set ↔ _
  rw [View.set_slice_whole, Rect.mem_set_unit]
  exact Iff.rfl

/-- The 32 blocks cover the output: index (g, ·, o) is in graph g's block. -/
theorem cover (i : S32x1x128.Idx) :
    ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 128 := (i 2).isLt
  have hN : cfg0.N = 32 := N_0
  obtain ⟨t, ht⟩ : ∃ t : Fin cfg0.N, t.val = (i 0).val := ⟨⟨(i 0).val, by omega⟩, rfl⟩
  refine ⟨t, flush0_4 t, ?_⟩
  rw [mem_blk4]
  obtain ⟨e0, e1, e2⟩ := idx4 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 128 ≤ (i 2).val ∧ (i 2).val < win0_4.index t (2 : Fin 3) * 128 + 128; omega

/-- THE OUTPUT ARRAY after the region. -/
theorem final (c : Dev nD) (hreal : ∀ i, ∃ r : ℝ, A0 m c i = (r : EReal)) : (dats m 0 c).arrAt 4 cfg0.N = Gout m c :=
  (dats m 0 c).arrAt_eq_of_cover 4 (Gout m c) (fun t _ => flushed_eq m c hreal t) (cover)

/-! ## The host operations after the region, and the run -/

/-- The output array with its unit axis dropped is the reference's 32 × 128 pooled features. -/
theorem pooled_eq (c : Dev nD) :
    (fun i => shapeCast S32x128 (Gout m c) shapeCasts_S32x1x128_S32x128 i)
      = Cert.ReferenceIdeal.ReadP.val_main_v81 (F := Ideal) (A0 m c) (A2 m c) (A3 m c) := by
  funext i
  obtain ⟨g, o, rfl⟩ : ∃ (g : Fin 32) (o : Fin 128), i = ix2 g o := ⟨i 0, i 1, eq_ix2 i⟩
  refine (shapeCast_apply (Gout m c) shapeCasts_S32x1x128_S32x128 (ix2 g o) (ix3 g (0 : Fin 1) o) (by
    rw [Shape.rowMajor_val_three, Shape.rowMajor_val_two]
    show (g.val * 1 + 0) * 128 + o.val = g.val * 128 + o.val
    omega)).trans ?_
  exact Gout_apply m c g 0 o

/-- The dense layer after the pooling: P·W + b, b broadcast over the rows. -/
def denseTail (P : FVec Ideal S32x128 .f32) (w : FVec Ideal S128x10 .f32) (b : FVec Ideal S10 .f32) : FVec Ideal S32x10 .f32 :=
  addf (Host.dotGeneral (F := Ideal) dot_S32x128_S128x10_S32x10_1_0_0_1_n_n none P w)
    (broadcastInDim S32x10 ![0, 1] bcast_S1x10_S32x10_0_1 (broadcastInDim S1x10 ![1] bcast_S10_S1x10_1 b))

attribute [local irreducible] Gout in
/-- After the region the host reshapes the output to 32 × 128, multiplies by the dense layer's weights and adds its bias:
    the reference's last operations on the reference's pooled features, hence the reference's result. -/
theorem tail_eq (c : Dev nD) (hreal : ∀ i, ∃ r : ℝ, A0 m c i = (r : EReal)) :
    Pipeline.afterTail₀ cfgs (dats m) 0 (V0 m) [hostOps1] c main_v14
      = Cert.ReferenceIdeal.ReadP.val_main_v85 (F := Ideal) (A0 m c) (A2 m c) (A3 m c) (A4 m c) (A5 m c) := by
  have e9 : Pipeline.withArrays (cfgs 0).spec c (V0 m c) (fun w => (dats m 0 c).arrAt w (cfgs 0).N) (Proc.devRef .tc main_v9)
      = Gout m c :=
    (Pipeline.withArrays_arr spec0 launch0.win.arr_inj c (V0 m c) (fun w => (dats m 0 c).arrAt w cfg0.N) 4).trans (final m c hreal)
  have e4 : Pipeline.withArrays (cfgs 0).spec c (V0 m c) (fun w => (dats m 0 c).arrAt w (cfgs 0).N) (Proc.devRef .tc main_arg4)
      = A4 m c :=
    (Pipeline.withArrays_of_ne _ c (V0 m c) _ main_arg4 (by exact (by decide : ∀ w, Pipeline.arrRef spec0 w ≠ main_arg4))).trans
      (V_main_arg4 m c)
  have e5 : Pipeline.withArrays (cfgs 0).spec c (V0 m c) (fun w => (dats m 0 c).arrAt w (cfgs 0).N) (Proc.devRef .tc main_arg5)
      = A5 m c :=
    (Pipeline.withArrays_of_ne _ c (V0 m c) _ main_arg5 (by exact (by decide : ∀ w, Pipeline.arrRef spec0 w ≠ main_arg5))).trans
      (V_main_arg5 m c)
  unfold Pipeline.afterTail₀
  show StableHlo.after hostOps1 _ (Proc.devRef .tc main_v14) = _
  after_results
  rw [e9, e4, e5]
  show denseTail (fun i => shapeCast S32x128 (Gout m c) shapeCasts_S32x1x128_S32x128 i) (A4 m c) (A5 m c) = _
  rw [pooled_eq]
  rfl

/-- THE RUN: every weakly fair execution of the idealized kernel's @main terminates with the result at the reference's
    result term of the arguments, and the arguments unchanged — when the points are real numbers. -/
theorem run (hreal : ∀ (c : Dev nD) i, ∃ r : ℝ, A0 m c i = (r : EReal)) :
    θ_run defs (onTc (τ := τ) (main (F := Ideal))) ⟨m, fun _ => 0, ρ⟩ (fun r => ∀ c : Dev nD,
      r.2.mem ((c.tc : Thread nD τ).loc main_v14)
        = Cert.ReferenceIdeal.ReadP.val_main_v85 (F := Ideal) (A0 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v14 (Pipeline.mem_restRefs_of main_v14 (by decide) (by decide))).trans (tail_eq m c (hreal c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KValue

end
-- ==== Proof.LibAbsLtInf.lean ====
/-
  "The absolute value tests below +∞" on the extended reals means "is a real number": the f32 pattern 0x7F800000 is the
  top element, and max x (−x) < ⊤ excludes both ⊥ (where −x = ⊤) and ⊤.
-/
import Idealize.ShloMosaic.PureOps.Ideal
import Idealize.ShloMosaic.PureOps.Ideal.Laws

noncomputable section

namespace Cert.LibAbsLtInf

open Idealize.ShloMosaic

/-- The f32 pattern of +∞ is the top element. -/
theorem ofBits_inf : Ideal.ofBits .f32 0x7F800000#32 = (⊤ : EReal) := by simp [Ideal.ofBits, Ideal.ieee]

/-- An extended real whose absolute value tests below +∞ is a real. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => simp at hlt
  | coe r => exact ⟨r, rfl⟩
  | top => simp at hlt

end Cert.LibAbsLtInf

end
-- ==== Proof.FiniteInputs.lean ====
/-
  From the precondition to "every point coordinate is a real number".

  The precondition is the conjunction of five tests, one per float input, each "every entry has absolute value below +∞".
  Its first conjunct, about the points' array, gives for every entry x that max x (−x) < ⊤, which on the extended
  reals leaves only the reals: at ⊥ and at ⊤ the maximum is ⊤.
-/
import proofs.«104438_j4294967296037_2_alg».proof.Pre_finite_inputs
import proofs.«104438_j4294967296037_2_alg».proof.Proof.Gen.Pre_finite_inputs
import proofs.«104438_j4294967296037_2_alg».proof.Proof.LibAbsLtInf
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs Cert.Pre_finite_inputs.Facts

instance : Subsingleton S_.Idx := ⟨fun a b => funext fun d => d.elim0⟩

/-- Under the precondition every entry of the first argument is a real. -/
theorem arg0_real (a0 : FVec Ideal S32768x6 .f32) (a1 : IVec S32768 32) (a2 : FVec Ideal S6x6x128 .f32) (a3 : FVec Ideal S128 .f32)
    (a4 : FVec Ideal S128x10 .f32) (a5 : FVec Ideal S10 .f32)
    (h : fn (F := Ideal) a0 a1 a2 a3 a4 a5 = fun _ => 1#1) (i : S32768x6.Idx) : ∃ r : ℝ, a0 i = (r : EReal) := by
  have h0 := congrFun h ValueIdx.ix0
  dsimp only [fn, fn_part1] at h0
  obtain ⟨h18, -⟩ := IntOp.andi_eq_one.mp h0
  obtain ⟨h13, -⟩ := IntOp.andi_eq_one.mp h18
  obtain ⟨h8, -⟩ := IntOp.andi_eq_one.mp h13
  obtain ⟨h3, -⟩ := IntOp.andi_eq_one.mp h8
  have hi := Host.reduce_andi_all _ _ _ _ _ h3 i
  exact Cert.LibAbsLtInf.real_of_abs_lt (a0 i) hi

end Cert.FiniteInputs

end
-- ==== Proof.lean ====
/-
  One graph-convolution network, two programs: a kernel launched once per graph, and a reference over the whole batch.

  Both take 32 graphs of 1024 points with 6 features.  For each graph they build the Gaussian adjacency
  exp(−‖x_n − x_m‖²) without self-loops, its degrees, and the scaled Laplacian L = −D^{−1/2} A D^{−1/2}; run the Chebyshev
  recurrence T₀ = X, T₁ = L X, T_{k+1} = 2 L T_k − T_{k−1} up to T₅; sum the six feature maps T_k W_k, add the bias,
  rectify, take the maximum over the graph's points, and finally apply one dense layer to the 32 × 128 pooled features.

  At exact (extended-real) arithmetic the two programs differ only in arrangement.  The kernel writes the squared distance's
  negative as (2·⟨x_n, x_m⟩ − ‖x_n‖²) − ‖x_m‖², the reference as −((‖x_n‖² − 2·⟨x_n, x_m⟩) + ‖x_m‖²): equal when the points
  are real numbers, which the precondition (every float input finite) gives — on the extended reals −(a + b) = −a − b fails
  at opposite infinities, so this is where the precondition is used.  The kernel writes the Laplacian as
  (0 − d_n d_m) · A_nm, the reference as −((d_n A_nm) d_m): equal always.  The kernel's matrix products accumulate into zero
  on the matrix unit and its sums are lane reductions; the reference's are host products and sums: the same finite sums.
  Format changes are the identity.  Everything after the Laplacian is the same sequence of operations on both sides.

  The proof: a specification of one graph's pooled features over coordinates in both arrangements, and their agreement on
  real points (GraphSpec); the kernel's stored row is the specification in the kernel's arrangement (KernelLaplacian,
  KernelGraph); the reference's pooled features, graph by graph, are the specification in the reference's arrangement
  (RefGraph); the 32 stored rows tile the kernel's output array, and the host operations after the region are the
  reference's last four operations (KernelValue); the precondition makes the points real (FiniteInputs).
  The three frames are the generated ones (the reference's is its run with the result dropped), and the idealization
  rewrote no operation, so there is nothing to preserve beyond the program's own text.
-/
import proofs.«104438_j4294967296037_2_alg».proof.Defs
import proofs.«104438_j4294967296037_2_alg».proof.Proof.Gen.Kernel
import proofs.«104438_j4294967296037_2_alg».proof.Proof.Gen.Kernel.Skeleton
import proofs.«104438_j4294967296037_2_alg».proof.Proof.Gen.Kernel.Launch
import proofs.«104438_j4294967296037_2_alg».proof.Proof.Gen.Kernel.Points
import proofs.«104438_j4294967296037_2_alg».proof.Proof.Gen.Kernel.Frame
import proofs.«104438_j4294967296037_2_alg».proof.Proof.Gen.KernelIdeal
import proofs.«104438_j4294967296037_2_alg».proof.Proof.Gen.KernelIdeal.Skeleton
import proofs.«104438_j4294967296037_2_alg».proof.Proof.Gen.KernelIdeal.Launch
import proofs.«104438_j4294967296037_2_alg».proof.Proof.Gen.KernelIdeal.Points
import proofs.«104438_j4294967296037_2_alg».proof.Proof.Gen.KernelIdeal.Frame
import proofs.«104438_j4294967296037_2_alg».proof.Proof.Gen.ReferenceIdeal
import proofs.«104438_j4294967296037_2_alg».proof.Proof.RefRun
import proofs.«104438_j4294967296037_2_alg».proof.Proof.RefRead
import proofs.«104438_j4294967296037_2_alg».proof.Proof.Gen.Pre_finite_inputs
import proofs.«104438_j4294967296037_2_alg».proof.Proof.KernelValue
import proofs.«104438_j4294967296037_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments, both idealized programs end with the reference's result term of those arguments. -/
theorem algebraic : Cert.algebraic_KernelIdeal_ReferenceIdeal := by
  intro m ρ m' ρ' hpre hagree
  have hreal : ∀ (c : Dev Cert.KernelIdeal.nD) i, ∃ r : ℝ, Cert.KernelIdeal.KValue.A0 m c i = (r : EReal) :=
    fun c i => Cert.FiniteInputs.arg0_real _ _ _ _ _ _ (hpre c) i
  refine ⟨_, Cert.KernelIdeal.KValue.run m ρ hreal, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v85_eq, (hagree c).1, (hagree c).2.2.1, (hagree c).2.2.2.1, (hagree c).2.2.2.2.1,
    (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
